-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x500000 : Shape := ⟨2, ![2, 500000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S2x500000 32) (main_arg2 : FVec F S128x128 .f32) (main_arg3 : FVec F S128 .f32) (main_arg4 : FVec F S128x64 .f32) (main_arg5 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x128 : Shape := ⟨2, ![50000, 128]⟩
abbrev S2x500000 : Shape := ⟨2, ![2, 500000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x500000 : Shape := ⟨2, ![1, 500000]⟩
abbrev S500000 : Shape := ⟨1, ![500000]⟩
abbrev S_ : Shape := ⟨0, ![]⟩
abbrev S50000 : Shape := ⟨1, ![50000]⟩
abbrev S500000x1 : Shape := ⟨2, ![500000, 1]⟩
abbrev S50000x1 : Shape := ⟨2, ![50000, 1]⟩
abbrev S5000x128 : Shape := ⟨2, ![5000, 128]⟩
abbrev S5000x1 : Shape := ⟨2, ![5000, 1]⟩
abbrev S500000x128 : Shape := ⟨2, ![500000, 128]⟩
abbrev S1x128 : Shape := ⟨2, ![1, 128]⟩
abbrev S50000x64 : Shape := ⟨2, ![50000, 64]⟩
abbrev S5000x64 : Shape := ⟨2, ![5000, 64]⟩
abbrev S500000x64 : Shape := ⟨2, ![500000, 64]⟩
abbrev S1x64 : Shape := ⟨2, ![1, 64]⟩

abbrev nBuf : Space → Nat
  | .hbm => 67
  | .vmem => 14
  | .smem => 0
  | _ => 0

abbrev bufTy : (tb : Table) → Fin (tcTables nBuf tb) → BufTy
  | .hbm, ⟨0, _⟩ => ⟨S50000x128, .f32⟩
  | .hbm, ⟨1, _⟩ => ⟨S2x500000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x500000, .i32⟩
  | .hbm, ⟨7, _⟩ => ⟨S500000, .i32⟩
  | .hbm, ⟨8, _⟩ => ⟨S1x500000, .i32⟩
  | .hbm, ⟨9, _⟩ => ⟨S500000, .i32⟩
  | .hbm, ⟨10, _⟩ => ⟨S_, .f32⟩
  | .hbm, ⟨11, _⟩ => ⟨S500000, .f32⟩
  | .hbm, ⟨12, _⟩ => ⟨S_, .f32⟩
  | .hbm, ⟨13, _⟩ => ⟨S50000, .f32⟩
  | .hbm, ⟨14, _⟩ => ⟨S500000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S50000, .f32⟩
  | .hbm, ⟨20, _⟩ => ⟨S50000x1, .f32⟩
  | .hbm, ⟨21, _⟩ => ⟨S50000x128, .f32⟩
  | .hbm, ⟨22, _⟩ => ⟨S_, .i32⟩
  | .hbm, ⟨23, _⟩ => ⟨S500000, .i32⟩
  | .hbm, ⟨24, _⟩ => ⟨S500000, .i1⟩
  | .hbm, ⟨25, _⟩ => ⟨S_, .i32⟩
  | .hbm, ⟨26, _⟩ => ⟨S500000, .i32⟩
  | .hbm, ⟨27, _⟩ => ⟨S500000, .i32⟩
  | .hbm, ⟨28, _⟩ => ⟨S500000, .i32⟩
  | .hbm, ⟨29, _⟩ => ⟨S500000x1, .i32⟩
  | .hbm, ⟨30, _⟩ => ⟨S500000x128, .f32⟩
  | .hbm, ⟨31, _⟩ => ⟨S_, .f32⟩
  | .hbm, ⟨32, _⟩ => ⟨S50000x128, .f32⟩
  | .hbm, ⟨33, _⟩ => ⟨S500000x1, .i32⟩
  | .hbm, ⟨34, _⟩ => ⟨S50000x128, .f32⟩
  | .hbm, ⟨35, _⟩ => ⟨S50000x1, .f32⟩
  | .hbm, ⟨36, _⟩ => ⟨S50000x128, .f32⟩
  | .hbm, ⟨37, _⟩ => ⟨S50000x128, .f32⟩
  | .hbm, ⟨38, _⟩ => ⟨S50000x128, .f32⟩
  | .hbm, ⟨39, _⟩ => ⟨S1x128, .f32⟩
  | .hbm, ⟨40, _⟩ => ⟨S50000x128, .f32⟩
  | .hbm, ⟨41, _⟩ => ⟨S50000x128, .f32⟩
  | .hbm, ⟨42, _⟩ => ⟨S_, .f32⟩
  | .hbm, ⟨43, _⟩ => ⟨S50000x128, .f32⟩
  | .hbm, ⟨44, _⟩ => ⟨S50000x128, .f32⟩
  | .hbm, ⟨45, _⟩ => ⟨S50000x1, .f32⟩
  | .hbm, ⟨46, _⟩ => ⟨S50000x64, .f32⟩
  | .hbm, ⟨47, _⟩ => ⟨S_, .i32⟩
  | .hbm, ⟨48, _⟩ => ⟨S500000, .i32⟩
  | .hbm, ⟨49, _⟩ => ⟨S500000, .i1⟩
  | .hbm, ⟨50, _⟩ => ⟨S_, .i32⟩
  | .hbm, ⟨51, _⟩ => ⟨S500000, .i32⟩
  | .hbm, ⟨52, _⟩ => ⟨S500000, .i32⟩
  | .hbm, ⟨53, _⟩ => ⟨S500000, .i32⟩
  | .hbm, ⟨54, _⟩ => ⟨S500000x1, .i32⟩
  | .hbm, ⟨55, _⟩ => ⟨S500000x64, .f32⟩
  | .hbm, ⟨56, _⟩ => ⟨S_, .f32⟩
  | .hbm, ⟨57, _⟩ => ⟨S50000x64, .f32⟩
  | .hbm, ⟨58, _⟩ => ⟨S500000x1, .i32⟩
  | .hbm, ⟨59, _⟩ => ⟨S50000x64, .f32⟩
  | .hbm, ⟨60, _⟩ => ⟨S50000x1, .f32⟩
  | .hbm, ⟨61, _⟩ => ⟨S50000x64, .f32⟩
  | .hbm, ⟨62, _⟩ => ⟨S50000x64, .f32⟩
  | .hbm, ⟨63, _⟩ => ⟨S50000x64, .f32⟩
  | .hbm, ⟨64, _⟩ => ⟨S1x64, .f32⟩
  | .hbm, ⟨65, _⟩ => ⟨S50000x64, .f32⟩
  | .hbm, ⟨66, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S128x64, .f32⟩
  | .local _ .vmem, ⟨10, _⟩ => ⟨S5000x1, .f32⟩
  | .local _ .vmem, ⟨11, _⟩ => ⟨S5000x1, .f32⟩
  | .local _ .vmem, ⟨12, _⟩ => ⟨S5000x64, .f32⟩
  | .local _ .vmem, ⟨13, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_call0_cst : Ref sig .tc := ⟨.hbm, 42, rfl⟩
abbrev main_call0_v0 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_4 : Ref sig .tc := ⟨.hbm, 47, rfl⟩
abbrev main_v33 : Ref sig .tc := ⟨.hbm, 48, rfl⟩
abbrev main_v34 : Ref sig .tc := ⟨.hbm, 49, rfl⟩
abbrev main_c_5 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_6 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S_S50000 : S_.BroadcastsInDim S50000 (![] : Fin 0 → Fin S50000.rank)
  bcast_S500000_S500000x1_0 : S500000.BroadcastsInDim S500000x1 (![0] : Fin 1 → Fin S500000x1.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S500000x1_S500000_n_0_0_1_wf : ScatterDims.WF S50000 S500000x1 S500000 [] [0] [0] 1
  dot_S5000x128_S128x128_S5000x128_1_0_0_1_n_n_wf : DotDims.WF S5000x128 S128x128 S5000x128 [1] [0] [0] [1] [] []
  gather_S50000x128_S500000x1_S500000x128_1_0_n_n_0_1_1128_wf : GatherDims.WF S50000x128 S500000x1 S500000x128 [1] [0] [] [0] [] 1 ![1, 128]
  scatter_S50000x128_S500000x1_S500000x128_1_0_0_1_wf : ScatterDims.WF S50000x128 S500000x1 S500000x128 [1] [0] [0] 1
  dot_S5000x128_S128x64_S5000x64_1_0_0_1_n_n_wf : DotDims.WF S5000x128 S128x64 S5000x64 [1] [0] [0] [1] [] []
  gather_S50000x64_S500000x1_S500000x64_1_0_n_n_0_1_164_wf : GatherDims.WF S50000x64 S500000x1 S500000x64 [1] [0] [] [0] [] 1 ![1, 64]
  scatter_S50000x64_S500000x1_S500000x64_1_0_0_1_wf : ScatterDims.WF S50000x64 S500000x1 S500000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .f32 = 32 ∨ (Rect.block (s := S50000x64) S5000x64.size (cc1_transform_3 i) (hinb1_3 i)).WholeWords (EltTy.packing .f32)

variable [Facts₀]

def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S500000x1_S500000x64_1_0_n_n_0_1_164 : GatherDims S50000x64 S500000x1 S500000x64 where
  offsetDims := [1]
  collapsedSliceDims := [0]
  operandBatchingDims := []
  startIndicesBatchingDims := []
  startIndexMap := [0]
  indexVectorDim := 1
  sliceSizes := ![1, 64]
  wf := gather_S50000x64_S500000x1_S500000x64_1_0_n_n_0_1_164_wf
def scatter_S50000x64_S500000x1_S500000x64_1_0_0_1 : ScatterDims S50000x64 S500000x1 S500000x64 where
  updateWindowDims := [1]
  insertedWindowDims := [0]
  scatterDimsToOperandDims := [0]
  indexVectorDim := 1
  wf := scatter_S50000x64_S500000x1_S500000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v30) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v31) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v32) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x500000 : Shape := ⟨2, ![2, 500000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x500000 : Shape := ⟨2, ![1, 500000]⟩
abbrev S500000 : Shape := ⟨1, ![500000]⟩
abbrev S_ : Shape := ⟨0, ![]⟩
abbrev S50000 : Shape := ⟨1, ![50000]⟩
abbrev S500000x1 : Shape := ⟨2, ![500000, 1]⟩
abbrev S500000x128 : Shape := ⟨2, ![500000, 128]⟩
abbrev S50000x1 : Shape := ⟨2, ![50000, 1]⟩
abbrev S1x128 : Shape := ⟨2, ![1, 128]⟩
abbrev S50000x64 : Shape := ⟨2, ![50000, 64]⟩
abbrev S500000x64 : Shape := ⟨2, ![500000, 64]⟩
abbrev S1x64 : Shape := ⟨2, ![1, 64]⟩

abbrev nBuf : Space → Nat
  | .hbm => 121
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x500000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x500000, .i32⟩
  | .hbm, ⟨7, _⟩ => ⟨S500000, .i32⟩
  | .hbm, ⟨8, _⟩ => ⟨S1x500000, .i32⟩
  | .hbm, ⟨9, _⟩ => ⟨S500000, .i32⟩
  | .hbm, ⟨10, _⟩ => ⟨S50000x128, .f32⟩
  | .hbm, ⟨11, _⟩ => ⟨S_, .f32⟩
  | .hbm, ⟨12, _⟩ => ⟨S500000, .f32⟩
  | .hbm, ⟨13, _⟩ => ⟨S_, .f32⟩
  | .hbm, ⟨14, _⟩ => ⟨S50000, .f32⟩
  | .hbm, ⟨15, _⟩ => ⟨S500000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S50000, .f32⟩
  | .hbm, ⟨21, _⟩ => ⟨S_, .i32⟩
  | .hbm, ⟨22, _⟩ => ⟨S500000, .i32⟩
  | .hbm, ⟨23, _⟩ => ⟨S500000, .i1⟩
  | .hbm, ⟨24, _⟩ => ⟨S_, .i32⟩
  | .hbm, ⟨25, _⟩ => ⟨S500000, .i32⟩
  | .hbm, ⟨26, _⟩ => ⟨S500000, .i32⟩
  | .hbm, ⟨27, _⟩ => ⟨S500000, .i32⟩
  | .hbm, ⟨28, _⟩ => ⟨S500000x1, .i32⟩
  | .hbm, ⟨29, _⟩ => ⟨S500000, .f32⟩
  | .hbm, ⟨30, _⟩ => ⟨S_, .i32⟩
  | .hbm, ⟨31, _⟩ => ⟨S500000, .i32⟩
  | .hbm, ⟨32, _⟩ => ⟨S500000, .i1⟩
  | .hbm, ⟨33, _⟩ => ⟨S_, .i32⟩
  | .hbm, ⟨34, _⟩ => ⟨S500000, .i32⟩
  | .hbm, ⟨35, _⟩ => ⟨S500000, .i32⟩
  | .hbm, ⟨36, _⟩ => ⟨S500000, .i32⟩
  | .hbm, ⟨37, _⟩ => ⟨S500000x1, .i32⟩
  | .hbm, ⟨38, _⟩ => ⟨S500000, .f32⟩
  | .hbm, ⟨39, _⟩ => ⟨S500000, .f32⟩
  | .hbm, ⟨40, _⟩ => ⟨S500000x1, .f32⟩
  | .hbm, ⟨41, _⟩ => ⟨S_, .i32⟩
  | .hbm, ⟨42, _⟩ => ⟨S500000, .i32⟩
  | .hbm, ⟨43, _⟩ => ⟨S500000, .i1⟩
  | .hbm, ⟨44, _⟩ => ⟨S_, .i32⟩
  | .hbm, ⟨45, _⟩ => ⟨S500000, .i32⟩
  | .hbm, ⟨46, _⟩ => ⟨S500000, .i32⟩
  | .hbm, ⟨47, _⟩ => ⟨S500000, .i32⟩
  | .hbm, ⟨48, _⟩ => ⟨S500000x1, .i32⟩
  | .hbm, ⟨49, _⟩ => ⟨S500000x128, .f32⟩
  | .hbm, ⟨50, _⟩ => ⟨S500000x128, .f32⟩
  | .hbm, ⟨51, _⟩ => ⟨S500000x128, .f32⟩
  | .hbm, ⟨52, _⟩ => ⟨S_, .f32⟩
  | .hbm, ⟨53, _⟩ => ⟨S50000x128, .f32⟩
  | .hbm, ⟨54, _⟩ => ⟨S500000x1, .i32⟩
  | .hbm, ⟨55, _⟩ => ⟨S50000x128, .f32⟩
  | .hbm, ⟨56, _⟩ => ⟨S50000, .f32⟩
  | .hbm, ⟨57, _⟩ => ⟨S50000x1, .f32⟩
  | .hbm, ⟨58, _⟩ => ⟨S50000x128, .f32⟩
  | .hbm, ⟨59, _⟩ => ⟨S50000x128, .f32⟩
  | .hbm, ⟨60, _⟩ => ⟨S50000x128, .f32⟩
  | .hbm, ⟨61, _⟩ => ⟨S1x128, .f32⟩
  | .hbm, ⟨62, _⟩ => ⟨S50000x128, .f32⟩
  | .hbm, ⟨63, _⟩ => ⟨S50000x128, .f32⟩
  | .hbm, ⟨64, _⟩ => ⟨S_, .f32⟩
  | .hbm, ⟨65, _⟩ => ⟨S50000x128, .f32⟩
  | .hbm, ⟨66, _⟩ => ⟨S50000x128, .f32⟩
  | .hbm, ⟨67, _⟩ => ⟨S50000x64, .f32⟩
  | .hbm, ⟨68, _⟩ => ⟨S_, .f32⟩
  | .hbm, ⟨69, _⟩ => ⟨S500000, .f32⟩
  | .hbm, ⟨70, _⟩ => ⟨S_, .f32⟩
  | .hbm, ⟨71, _⟩ => ⟨S50000, .f32⟩
  | .hbm, ⟨72, _⟩ => ⟨S500000x1, .i32⟩
  | .hbm, ⟨73, _⟩ => ⟨S50000, .f32⟩
  | .hbm, ⟨74, _⟩ => ⟨S_, .f32⟩
  | .hbm, ⟨75, _⟩ => ⟨S50000, .f32⟩
  | .hbm, ⟨76, _⟩ => ⟨S50000, .f32⟩
  | .hbm, ⟨77, _⟩ => ⟨S50000, .f32⟩
  | .hbm, ⟨78, _⟩ => ⟨S_, .i32⟩
  | .hbm, ⟨79, _⟩ => ⟨S500000, .i32⟩
  | .hbm, ⟨80, _⟩ => ⟨S500000, .i1⟩
  | .hbm, ⟨81, _⟩ => ⟨S_, .i32⟩
  | .hbm, ⟨82, _⟩ => ⟨S500000, .i32⟩
  | .hbm, ⟨83, _⟩ => ⟨S500000, .i32⟩
  | .hbm, ⟨84, _⟩ => ⟨S500000, .i32⟩
  | .hbm, ⟨85, _⟩ => ⟨S500000x1, .i32⟩
  | .hbm, ⟨86, _⟩ => ⟨S500000, .f32⟩
  | .hbm, ⟨87, _⟩ => ⟨S_, .i32⟩
  | .hbm, ⟨88, _⟩ => ⟨S500000, .i32⟩
  | .hbm, ⟨89, _⟩ => ⟨S500000, .i1⟩
  | .hbm, ⟨90, _⟩ => ⟨S_, .i32⟩
  | .hbm, ⟨91, _⟩ => ⟨S500000, .i32⟩
  | .hbm, ⟨92, _⟩ => ⟨S500000, .i32⟩
  | .hbm, ⟨93, _⟩ => ⟨S500000, .i32⟩
  | .hbm, ⟨94, _⟩ => ⟨S500000x1, .i32⟩
  | .hbm, ⟨95, _⟩ => ⟨S500000, .f32⟩
  | .hbm, ⟨96, _⟩ => ⟨S500000, .f32⟩
  | .hbm, ⟨97, _⟩ => ⟨S500000x1, .f32⟩
  | .hbm, ⟨98, _⟩ => ⟨S_, .i32⟩
  | .hbm, ⟨99, _⟩ => ⟨S500000, .i32⟩
  | .hbm, ⟨100, _⟩ => ⟨S500000, .i1⟩
  | .hbm, ⟨101, _⟩ => ⟨S_, .i32⟩
  | .hbm, ⟨102, _⟩ => ⟨S500000, .i32⟩
  | .hbm, ⟨103, _⟩ => ⟨S500000, .i32⟩
  | .hbm, ⟨104, _⟩ => ⟨S500000, .i32⟩
  | .hbm, ⟨105, _⟩ => ⟨S500000x1, .i32⟩
  | .hbm, ⟨106, _⟩ => ⟨S500000x64, .f32⟩
  | .hbm, ⟨107, _⟩ => ⟨S500000x64, .f32⟩
  | .hbm, ⟨108, _⟩ => ⟨S500000x64, .f32⟩
  | .hbm, ⟨109, _⟩ => ⟨S_, .f32⟩
  | .hbm, ⟨110, _⟩ => ⟨S50000x64, .f32⟩
  | .hbm, ⟨111, _⟩ => ⟨S500000x1, .i32⟩
  | .hbm, ⟨112, _⟩ => ⟨S50000x64, .f32⟩
  | .hbm, ⟨113, _⟩ => ⟨S50000, .f32⟩
  | .hbm, ⟨114, _⟩ => ⟨S50000x1, .f32⟩
  | .hbm, ⟨115, _⟩ => ⟨S50000x64, .f32⟩
  | .hbm, ⟨116, _⟩ => ⟨S50000x64, .f32⟩
  | .hbm, ⟨117, _⟩ => ⟨S50000x64, .f32⟩
  | .hbm, ⟨118, _⟩ => ⟨S1x64, .f32⟩
  | .hbm, ⟨119, _⟩ => ⟨S50000x64, .f32⟩
  | .hbm, ⟨120, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_5 : Ref sig .tc := ⟨.hbm, 41, rfl⟩
abbrev main_v28 : Ref sig .tc := ⟨.hbm, 42, rfl⟩
abbrev main_v29 : Ref sig .tc := ⟨.hbm, 43, rfl⟩
abbrev main_c_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call0_cst : Ref sig .tc := ⟨.hbm, 64, rfl⟩
abbrev main_call0_v0 : Ref sig .tc := ⟨.hbm, 65, rfl⟩
abbrev main_v48 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_10 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_c_11 : Ref sig .tc := ⟨.hbm, 78, rfl⟩
abbrev main_v57 : Ref sig .tc := ⟨.hbm, 79, rfl⟩
abbrev main_v58 : Ref sig .tc := ⟨.hbm, 80, rfl⟩
abbrev main_c_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_13 : Ref sig .tc := ⟨.hbm, 87, rfl⟩
abbrev main_v64 : Ref sig .tc := ⟨.hbm, 88, rfl⟩
abbrev main_v65 : Ref sig .tc := ⟨.hbm, 89, rfl⟩
abbrev main_c_14 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_c_15 : Ref sig .tc := ⟨.hbm, 98, rfl⟩
abbrev main_v73 : Ref sig .tc := ⟨.hbm, 99, rfl⟩
abbrev main_v74 : Ref sig .tc := ⟨.hbm, 100, rfl⟩
abbrev main_c_16 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_17 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S_S50000 : S_.BroadcastsInDim S50000 (![] : Fin 0 → Fin S50000.rank)
  bcast_S500000_S500000x1_0 : S500000.BroadcastsInDim S500000x1 (![0] : Fin 1 → Fin S500000x1.rank)
  bcast_S500000x1_S500000x128_0_1 : S500000x1.BroadcastsInDim S500000x128 (![0, 1] : Fin 2 → Fin S500000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S500000x1_S500000x64_0_1 : S500000x1.BroadcastsInDim S500000x64 (![0, 1] : Fin 2 → Fin S500000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x128_S128x128_S50000x128_1_0_0_1_n_n_wf : DotDims.WF S50000x128 S128x128 S50000x128 [1] [0] [0] [1] [] []
  scatter_S50000_S500000x1_S500000_n_0_0_1_wf : ScatterDims.WF S50000 S500000x1 S500000 [] [0] [0] 1
  gather_S50000_S500000x1_S500000_n_0_n_n_0_1_1_wf : GatherDims.WF S50000 S500000x1 S500000 [] [0] [] [0] [] 1 ![1]
  gather_S50000x128_S500000x1_S500000x128_1_0_n_n_0_1_1128_wf : GatherDims.WF S50000x128 S500000x1 S500000x128 [1] [0] [] [0] [] 1 ![1, 128]
  scatter_S50000x128_S500000x1_S500000x128_1_0_0_1_wf : ScatterDims.WF S50000x128 S500000x1 S500000x128 [1] [0] [0] 1
  dot_S50000x128_S128x64_S50000x64_1_0_0_1_n_n_wf : DotDims.WF S50000x128 S128x64 S50000x64 [1] [0] [0] [1] [] []
  gather_S50000x64_S500000x1_S500000x64_1_0_n_n_0_1_164_wf : GatherDims.WF S50000x64 S500000x1 S500000x64 [1] [0] [] [0] [] 1 ![1, 64]
  scatter_S50000x64_S500000x1_S500000x64_1_0_0_1_wf : ScatterDims.WF S50000x64 S500000x1 S500000x64 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def gather_S50000_S500000x1_S500000_n_0_n_n_0_1_1 : GatherDims S50000 S500000x1 S500000 where
  offsetDims := []
  collapsedSliceDims := [0]
  operandBatchingDims := []
  startIndicesBatchingDims := []
  startIndexMap := [0]
  indexVectorDim := 1
  sliceSizes := ![1]
  wf := gather_S50000_S500000x1_S500000_n_0_n_n_0_1_1_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S500000x1_S500000x64_1_0_n_n_0_1_164 : GatherDims S50000x64 S500000x1 S500000x64 where
  offsetDims := [1]
  collapsedSliceDims := [0]
  operandBatchingDims := []
  startIndicesBatchingDims := []
  startIndexMap := [0]
  indexVectorDim := 1
  sliceSizes := ![1, 64]
  wf := gather_S50000x64_S500000x1_S500000x64_1_0_n_n_0_1_164_wf
def scatter_S50000x64_S500000x1_S500000x64_1_0_0_1 : ScatterDims S50000x64 S500000x1 S500000x64 where
  updateWindowDims := [1]
  insertedWindowDims := [0]
  scatterDimsToOperandDims := [0]
  indexVectorDim := 1
  wf := scatter_S50000x64_S500000x1_S500000x64_1_0_0_1_wf

class Facts : Prop extends Facts₀ where

variable [Facts]
-- ==== Proof.KernelRun.lean ====
/-
  The idealized kernel program's run with its RESULT kept. The program is two kernel regions among stretches of host
  operations; its run passes through eight boundaries, and at each boundary every buffer that outlives a region holds
  a known value: the fold of the host operations and of the regions' write-backs over the launch memory (the last
  boundary's contents are 'W7'). Every weakly fair execution terminates, faults nowhere, leaves the six argument
  arrays as launched, and leaves in the result buffer the last boundary's contents at that buffer.
-/
import proofs.«104957_j37477884625100_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run: termination, no fault, the result buffer at the last boundary's contents, the arguments as launched.
    The launch over the program's seven segments; the last thread state, which holds every buffer that outlives a
    region at the last boundary's contents, is read against the final memory at the result and at each argument. -/
theorem run : θ_run defs (onTc (τ := τ) (main (F := F))) ⟨m, fun _ => 0, ρ⟩ (fun r => ∀ c : Dev nD,
      r.2.mem ((c.tc : Thread nD τ).loc main_v49) = W7 m ρ c (Proc.devRef .tc main_v49)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v49 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.Run

end
-- ==== Proof.Spec.lean ====
/-
  A two-layer graph convolution, written once for each of the two arrangements that are compared.

  The graph is a list of M edges over N nodes, each edge a pair of 32-bit position words (source, destination).
  A row lookup "v[pos]" reads the position as a signed integer, adds N to a negative one, and clamps the result
  into the rows ('pick'). An accumulation "segment_sum(u, pos)" adds edge e's update into row n exactly when the
  destination word, read as a signed integer and neither wrapped nor clamped, is n ('lands'); other edges are dropped.
  When an edge lands on row n its destination word is n itself, so the lookup through that word reads row n
  ('pick_of_lands'): this is the one fact about positions the comparison uses.

  With deg n = (number of edges landing on n) + 1 and d n = 1/sqrt(deg n), one layer sends a node-feature matrix h
  (already multiplied by the layer's weights) and a bias b to

      first arrangement :  d n * ( sum over edges e landing on n of (h (S e) q * d (S e))  +  h n q * d n ) + b q
      second arrangement:  ( sum over edges e landing on n of (d (S e) * d (Dn e)) * h (S e) q  +  (d n * d n) * h n q ) + b q

  where S e is the row looked up through the source word and Dn e the row looked up through the destination word.
  The sums start from zero exactly as the accumulation does. The network is layer, rectifier max(., 0), layer.
-/
import Idealize.ShloMosaic.Lib.ValueIdx
import Idealize.ShloMosaic.PureOps.Ideal

noncomputable section

namespace Cert.Gcn

open Idealize.ShloMosaic
open scoped BigOperators

/-! ## Positions -/

/-- A position word with 50000 added when it is negative as a signed integer. -/
def wrap (w : BitVec 32) : BitVec 32 := Scalar.select (IntOp.cmpi .slt w 0#32) (IntOp.addi w 50000#32) w

/-- The row a lookup reads through the position word w: wrapped, then clamped into the 50000 rows. -/
def pick (w : BitVec 32) : Fin 50000 := ⟨min (wrap w).toInt.toNat (50000 - 1), by omega⟩

/-- Edge position w delivers its update to row n: the word, read signed, is exactly n. -/
def lands (w : BitVec 32) (n : Fin 50000) : Prop := w.toInt = (n.val : Int)

instance (w : BitVec 32) (n : Fin 50000) : Decidable (lands w n) := by unfold lands; infer_instance

/-! ## One layer, in the two arrangements, over any extents -/

section Layer
variable {N M D K : Nat}

/-- An extended real that is a real number. -/
def IsReal (v : EReal) : Prop := ∃ r : ℝ, v = (r : EReal)

/-- deg n: the number of edges landing on n, accumulated from zero, plus one. -/
def deg (del : Fin M → Fin N → Prop) [∀ e n, Decidable (del e n)] (n : Fin N) : EReal :=
  (0 + ∑ e : Fin M, if del e n then (1 : EReal) else 0) + 1

/-- d n = 1/sqrt(deg n). -/
def dinv (del : Fin M → Fin N → Prop) [∀ e n, Decidable (del e n)] (n : Fin N) : EReal := Ideal.rsqrt (deg del n)

/-- A matrix product, entry (n, q): the sum over k of x n k * w k q. -/
def mm (x : Fin N → Fin K → EReal) (w : Fin K → Fin D → EReal) (n : Fin N) (q : Fin D) : EReal :=
  ∑ k : Fin K, x n k * w k q

/-- The first arrangement: h is scaled by d before it is looked up and accumulated, and the sum is scaled by d after. -/
def layerK (S : Fin M → Fin N) (del : Fin M → Fin N → Prop) [∀ e n, Decidable (del e n)] (d : Fin N → EReal)
    (h : Fin N → Fin D → EReal) (b : Fin D → EReal) (n : Fin N) (q : Fin D) : EReal :=
  d n * ((0 + ∑ e : Fin M, if del e n then h (S e) q * d (S e) else 0) + h n q * d n) + b q

/-- The second arrangement: each edge carries the coefficient d (S e) * d (Dn e), and the node itself d n * d n. -/
def layerR (S Dn : Fin M → Fin N) (del : Fin M → Fin N → Prop) [∀ e n, Decidable (del e n)] (d : Fin N → EReal)
    (h : Fin N → Fin D → EReal) (b : Fin D → EReal) (n : Fin N) (q : Fin D) : EReal :=
  ((0 + ∑ e : Fin M, if del e n then (d (S e) * d (Dn e)) * h (S e) q else 0) + (d n * d n) * h n q) + b q

end Layer

/-- The rectifier. -/
def relu (v : EReal) : EReal := max v 0

/-! ## The network on the literal extents -/

section Net
variable (x : Fin 50000 → Fin 128 → EReal) (ei : Fin 2 → Fin 500000 → BitVec 32)
  (w1 : Fin 128 → Fin 128 → EReal) (b1 : Fin 128 → EReal) (w2 : Fin 128 → Fin 64 → EReal) (b2 : Fin 64 → EReal)

/-- The row looked up through edge e's source word. -/
def srcRow (e : Fin 500000) : Fin 50000 := pick (ei 0 e)
/-- The row looked up through edge e's destination word. -/
def dstRow (e : Fin 500000) : Fin 50000 := pick (ei 1 e)
/-- Edge e lands on node n. -/
def del (e : Fin 500000) (n : Fin 50000) : Prop := lands (ei 1 e) n
instance (e : Fin 500000) (n : Fin 50000) : Decidable (del ei e n) := by unfold del; infer_instance

/-- d n of this graph. -/
def dnode (n : Fin 50000) : EReal := dinv (del ei) n

/-- The first arrangement's hidden layer after the rectifier. -/
def hiddenK (n : Fin 50000) (k : Fin 128) : EReal :=
  relu (layerK (srcRow ei) (del ei) (dnode ei) (mm x w1) b1 n k)
/-- The first arrangement's output. -/
def outK (n : Fin 50000) (q : Fin 64) : EReal :=
  layerK (srcRow ei) (del ei) (dnode ei) (mm (hiddenK x ei w1 b1) w2) b2 n q

/-- The second arrangement's hidden layer after the rectifier. -/
def hiddenR (n : Fin 50000) (k : Fin 128) : EReal :=
  relu (layerR (srcRow ei) (dstRow ei) (del ei) (dnode ei) (mm x w1) b1 n k)
/-- The second arrangement's output. -/
def outR (n : Fin 50000) (q : Fin 64) : EReal :=
  layerR (srcRow ei) (dstRow ei) (del ei) (dnode ei) (mm (hiddenR x ei w1 b1) w2) b2 n q

end Net

end Cert.Gcn

end
-- ==== Proof.LibIndexOps.lean ====
/-
  Rows of a matrix (or entries of a vector) picked and accumulated by a list of integer positions, read at an index.

  A gather "x[idx]" along the leading axis reads, for list entry e, the row of x at position idx e, the position read as
  a signed integer and clamped into the rows of x. An accumulating scatter "y.at[idx].add(u)" adds, into row n of y, every
  list entry e's update whose position idx e, read as a signed integer and NOT clamped, is exactly n; an entry whose
  position is negative or past the last row contributes nothing. At the ideal values the accumulation is the exact sum,
  so the scattered array at (n, q) is y (n, q) plus the sum over the list entries e with idx e = n of u (e, q).
  Stated for the dimension numbers jax prints for these two operations on a matrix and on a vector, with the list of
  positions given as an [M, 1] array, for any extents.
-/
import Idealize.ShloMosaic.Lib.ValueIdx
import Idealize.ShloMosaic.PureOps.Ideal.Laws

noncomputable section

namespace Cert.LibIndexOps

open Idealize.ShloMosaic Idealize.ShloMosaic.ValueIdx
open scoped BigOperators

variable {α : Type} {N M D w : Nat}

/-! ## Gathering rows of a matrix -/

/-- The record of "x[idx]" for a matrix x : [N, D] and positions [M, 1]: whole rows, the leading axis collapsed. -/
abbrev rowsGather (N M D : Nat) (wf : GatherDims.WF ⟨2, ![N, D]⟩ ⟨2, ![M, 1]⟩ ⟨2, ![M, D]⟩ [1] [0] [] [0] [] 1 ![1, D]) :
    GatherDims ⟨2, ![N, D]⟩ ⟨2, ![M, 1]⟩ ⟨2, ![M, D]⟩ where
  offsetDims := [1]
  collapsedSliceDims := [0]
  operandBatchingDims := []
  startIndicesBatchingDims := []
  startIndexMap := [0]
  indexVectorDim := 1
  sliceSizes := ![1, D]
  wf := wf

/-- Entry (e, q) of the gathered rows: x at row "position e, clamped" and column q. -/
theorem gather_rows_apply (hN : 0 < N)
    (wf : GatherDims.WF ⟨2, ![N, D]⟩ ⟨2, ![M, 1]⟩ ⟨2, ![M, D]⟩ [1] [0] [] [0] [] 1 ![1, D])
    (x : (⟨2, ![N, D]⟩ : Shape).Idx → α) (idx : IVec ⟨2, ![M, 1]⟩ w) (e : Fin M) (q : Fin D) :
    Host.gather (rowsGather N M D wf) x idx (ix2 e q)
      = x (ix2 (⟨min (idx (ix2 e (0 : Fin 1))).toInt.toNat (N - 1), by omega⟩ : Fin N) q) := by
  unfold Host.gather
  congr 1
  funext a
  refine Fin.ext ?_
  show (rowsGather N M D wf).start (ix2 e q) idx a + (rowsGather N M D wf).batchCoord (ix2 e q) a
    + (rowsGather N M D wf).offCoord (ix2 e q) a = _
  rw [GatherDims.batchCoord_eq_zero _ _ _ List.not_mem_nil]
  have key0 : (rowsGather N M D wf).start (ix2 e q) idx (0 : Fin 2) + 0 + (rowsGather N M D wf).offCoord (ix2 e q) (0 : Fin 2)
      = min (idx (ix2 e (0 : Fin 1))).toInt.toNat (N - 1) := by
    rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsGather N M D wf).startIndexMap from List.mem_singleton.mpr rfl)]
    have hsi : (rowsGather N M D wf).siIdx (ix2 e q) ⟨List.idxOf (0 : Fin 2) (rowsGather N M D wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  have key1 : (rowsGather N M D wf).start (ix2 e q) idx (1 : Fin 2) + 0 + (rowsGather N M D wf).offCoord (ix2 e q) (1 : Fin 2)
      = q.val := by
    have hs : (rowsGather N M D wf).start (ix2 e q) idx (1 : Fin 2) = 0 := by
      unfold GatherDims.start
      rw [dif_neg (show (1 : Fin 2) ∉ ([0] : List (Fin 2)) by decide)]
    have ho : (rowsGather N M D wf).offCoord (ix2 e q) (1 : Fin 2) = q.val := by
      unfold GatherDims.offCoord
      rw [dif_pos ((GatherDims.mem_sKept _ _).2 ⟨(show (1 : Fin 2) ∉ ([0] : List (Fin 2)) by decide), List.not_mem_nil⟩)]
      rfl
    rw [hs, ho]; omega
  match a with
  | ⟨0, _⟩ => exact key0
  | ⟨1, _⟩ => exact key1

/-! ## Gathering entries of a vector -/

/-- The record of "x[idx]" for a vector x : [N] and positions [M, 1]. -/
abbrev vecGather (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- Entry e of the gathered vector: x at "position e, clamped". -/
theorem gather_vec_apply (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (vecGather N M wf) x idx (ix1 e)
      = x (ix1 (⟨min (idx (ix2 e (0 : Fin 1))).toInt.toNat (N - 1), by omega⟩ : Fin N)) := by
  unfold Host.gather
  congr 1
  funext a
  obtain rfl : a = 0 := Subsingleton.elim _ _
  refine Fin.ext ?_
  show (vecGather N M wf).start (ix1 e) idx 0 + (vecGather N M wf).batchCoord (ix1 e) 0 + (vecGather N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N M wf).startIndexMap from List.mem_singleton.mpr rfl)]
  have hsi : (vecGather N M wf).siIdx (ix1 e) ⟨List.idxOf (0 : Fin 1) (vecGather N M wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## Accumulating rows into a matrix -/

/-- The record of "y.at[idx].add(u)" for a matrix y : [N, D], positions [M, 1] and updates u : [M, D]. -/
abbrev rowsScatter (N M D : Nat) (wf : ScatterDims.WF ⟨2, ![N, D]⟩ ⟨2, ![M, 1]⟩ ⟨2, ![M, D]⟩ [1] [0] [0] 1) :
    ScatterDims ⟨2, ![N, D]⟩ ⟨2, ![M, 1]⟩ ⟨2, ![M, D]⟩ where
  updateWindowDims := [1]
  insertedWindowDims := [0]
  scatterDimsToOperandDims := [0]
  indexVectorDim := 1
  wf := wf

/-- Update (e, q') lands on entry (n, q) exactly when position e is n and the columns agree. -/
theorem rows_lands_iff (wf : ScatterDims.WF ⟨2, ![N, D]⟩ ⟨2, ![M, 1]⟩ ⟨2, ![M, D]⟩ [1] [0] [0] 1)
    (idx : IVec ⟨2, ![M, 1]⟩ w) (e : Fin M) (q' : Fin D) (n : Fin N) (q : Fin D) :
    (rowsScatter N M D wf).resultIdx? (ix2 e q') idx = some (ix2 n q)
      ↔ (idx (ix2 e (0 : Fin 1))).toInt = (n.val : Int) ∧ q' = q := by
  have s0 : (rowsScatter N M D wf).start (ix2 e q') idx (0 : Fin 2) = (idx (ix2 e (0 : Fin 1))).toInt := by
    unfold ScatterDims.start
    rw [dif_pos (show (0 : Fin 2) ∈ (rowsScatter N M D wf).scatterDimsToOperandDims from List.mem_singleton.mpr rfl)]
    congr 2
    funext b; refine Fin.ext ?_
    match b with
    | ⟨0, _⟩ => rfl
    | ⟨1, _⟩ => rfl
  have s1 : (rowsScatter N M D wf).start (ix2 e q') idx (1 : Fin 2) = 0 := by
    unfold ScatterDims.start
    rw [dif_neg (show (1 : Fin 2) ∉ ([0] : List (Fin 2)) by decide)]
  have w0 : (rowsScatter N M D wf).window (ix2 e q') (0 : Fin 2) = 0 := by
    unfold ScatterDims.window
    rw [dif_neg (show (0 : Fin 2) ∉ (rowsScatter N M D wf).sKept from (by decide : (0 : Fin 2) ∉ (List.finRange 2).filter (· ∉ ([0] : List (Fin 2)))))]
  have w1 : (rowsScatter N M D wf).window (ix2 e q') (1 : Fin 2) = q'.val := by
    unfold ScatterDims.window
    rw [dif_pos (show (1 : Fin 2) ∈ (rowsScatter N M D wf).sKept from (by decide : (1 : Fin 2) ∈ (List.finRange 2).filter (· ∉ ([0] : List (Fin 2)))))]
    rfl
  have hn := n.isLt
  have hq := q.isLt
  have hq' := q'.isLt
  unfold ScatterDims.resultIdx?
  split
  · next h =>
    rw [Option.some.injEq]
    constructor
    · intro hf
      have h0 : ((rowsScatter N M D wf).start (ix2 e q') idx (0 : Fin 2) + ((rowsScatter N M D wf).window (ix2 e q') (0 : Fin 2) : Int)).toNat = n.val :=
        congrArg (fun f : (⟨2, ![N, D]⟩ : Shape).Idx => (f 0).val) hf
      have h1 : ((rowsScatter N M D wf).start (ix2 e q') idx (1 : Fin 2) + ((rowsScatter N M D wf).window (ix2 e q') (1 : Fin 2) : Int)).toNat = q.val :=
        congrArg (fun f : (⟨2, ![N, D]⟩ : Shape).Idx => (f 1).val) hf
      have hh := (h 0).1
      rw [s0, w0] at h0 hh
      rw [s1, w1] at h1
      exact ⟨by omega, Fin.ext (by omega)⟩
    · rintro ⟨h0, rfl⟩
      funext a; refine Fin.ext ?_
      match a with
      | ⟨0, _⟩ =>
        show ((rowsScatter N M D wf).start (ix2 e q') idx (0 : Fin 2) + ((rowsScatter N M D wf).window (ix2 e q') (0 : Fin 2) : Int)).toNat = n.val
        rw [s0, w0]; omega
      | ⟨1, _⟩ =>
        show ((rowsScatter N M D wf).start (ix2 e q') idx (1 : Fin 2) + ((rowsScatter N M D wf).window (ix2 e q') (1 : Fin 2) : Int)).toNat = q'.val
        rw [s1, w1]; omega
  · next h =>
    constructor
    · intro hf; exact absurd hf (by simp)
    · rintro ⟨h0, rfl⟩
      exfalso; apply h; intro a
      match a with
      | ⟨0, _⟩ =>
        show 0 ≤ (rowsScatter N M D wf).start (ix2 e q') idx (0 : Fin 2) + ((rowsScatter N M D wf).window (ix2 e q') (0 : Fin 2) : Int)
          ∧ (rowsScatter N M D wf).start (ix2 e q') idx (0 : Fin 2) + ((rowsScatter N M D wf).window (ix2 e q') (0 : Fin 2) : Int) < (N : Int)
        rw [s0, w0]; omega
      | ⟨1, _⟩ =>
        show 0 ≤ (rowsScatter N M D wf).start (ix2 e q') idx (1 : Fin 2) + ((rowsScatter N M D wf).window (ix2 e q') (1 : Fin 2) : Int)
          ∧ (rowsScatter N M D wf).start (ix2 e q') idx (1 : Fin 2) + ((rowsScatter N M D wf).window (ix2 e q') (1 : Fin 2) : Int) < (D : Int)
        rw [s1, w1]; omega

/-- Entry (n, q) of the accumulated matrix at the ideal values: y (n, q) plus the updates of the list entries whose
    position is n, at column q. -/
theorem scatterAdd_rows_apply (wf : ScatterDims.WF ⟨2, ![N, D]⟩ ⟨2, ![M, 1]⟩ ⟨2, ![M, D]⟩ [1] [0] [0] 1)
    (y : FVec Ideal ⟨2, ![N, D]⟩ .f32) (idx : IVec ⟨2, ![M, 1]⟩ w) (u : FVec Ideal ⟨2, ![M, D]⟩ .f32) (n : Fin N) (q : Fin D) :
    Host.scatterAdd (rowsScatter N M D wf) y idx u (ix2 n q)
      = y (ix2 n q) + ∑ e : Fin M, if (idx (ix2 e (0 : Fin 1))).toInt = (n.val : Int) then u (ix2 e q) else 0 := by
  show Ideal.hostScatterAdd (rowsScatter N M D wf) y idx u (ix2 n q) = _
  unfold Ideal.hostScatterAdd
  congr 1
  rw [Finset.sum_filter, sum_idx2]
  refine Finset.sum_congr rfl fun e _ => ?_
  simp only [rows_lands_iff]
  by_cases h : (idx (ix2 e (0 : Fin 1))).toInt = (n.val : Int)
  · simp only [h, true_and, if_true]
    rw [Finset.sum_ite_eq' Finset.univ q (fun q' => u (ix2 e q'))]
    simp
  · simp [h]

/-! ## Accumulating entries into a vector -/

/-- The record of "y.at[idx].add(u)" for a vector y : [N], positions [M, 1] and updates u : [M]. -/
abbrev vecScatter (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- Update e lands on entry n exactly when position e is n. -/
theorem vec_lands_iff (wf : ScatterDims.WF ⟨1, ![N]⟩ ⟨2, ![M, 1]⟩ ⟨1, ![M]⟩ [] [0] [0] 1)
    (idx : IVec ⟨2, ![M, 1]⟩ w) (e : Fin M) (n : Fin N) :
    (vecScatter N M wf).resultIdx? (ix1 e) idx = some (ix1 n) ↔ (idx (ix2 e (0 : Fin 1))).toInt = (n.val : Int) := by
  have s0 : (vecScatter N M wf).start (ix1 e) idx (0 : Fin 1) = (idx (ix2 e (0 : Fin 1))).toInt := by
    unfold ScatterDims.start
    rw [dif_pos (show (0 : Fin 1) ∈ (vecScatter N M wf).scatterDimsToOperandDims from List.mem_singleton.mpr rfl)]
    congr 2
    funext b; refine Fin.ext ?_
    match b with
    | ⟨0, _⟩ => rfl
    | ⟨1, _⟩ => rfl
  have w0 : (vecScatter N M wf).window (ix1 e) (0 : Fin 1) = 0 := by
    unfold ScatterDims.window
    rw [dif_neg (show (0 : Fin 1) ∉ (vecScatter N M wf).sKept from (by decide : (0 : Fin 1) ∉ (List.finRange 1).filter (· ∉ ([0] : List (Fin 1)))))]
  have hn := n.isLt
  unfold ScatterDims.resultIdx?
  split
  · next h =>
    rw [Option.some.injEq]
    constructor
    · intro hf
      have h0 : ((vecScatter N M wf).start (ix1 e) idx (0 : Fin 1) + ((vecScatter N M wf).window (ix1 e) (0 : Fin 1) : Int)).toNat = n.val :=
        congrArg (fun f : (⟨1, ![N]⟩ : Shape).Idx => (f 0).val) hf
      have hh := (h 0).1
      rw [s0, w0] at h0 hh
      omega
    · intro h0
      funext a; refine Fin.ext ?_
      obtain rfl : a = 0 := Subsingleton.elim _ _
      show ((vecScatter N M wf).start (ix1 e) idx (0 : Fin 1) + ((vecScatter N M wf).window (ix1 e) (0 : Fin 1) : Int)).toNat = n.val
      rw [s0, w0]; omega
  · next h =>
    constructor
    · intro hf; exact absurd hf (by simp)
    · intro h0
      exfalso; apply h; intro a
      obtain rfl : a = 0 := Subsingleton.elim _ _
      show 0 ≤ (vecScatter N M wf).start (ix1 e) idx (0 : Fin 1) + ((vecScatter N M wf).window (ix1 e) (0 : Fin 1) : Int)
        ∧ (vecScatter N M wf).start (ix1 e) idx (0 : Fin 1) + ((vecScatter N M wf).window (ix1 e) (0 : Fin 1) : Int) < (N : Int)
      rw [s0, w0]; omega

/-- Entry n of the accumulated vector at the ideal values: y n plus the updates of the list entries whose position is n. -/
theorem scatterAdd_vec_apply (wf : ScatterDims.WF ⟨1, ![N]⟩ ⟨2, ![M, 1]⟩ ⟨1, ![M]⟩ [] [0] [0] 1)
    (y : FVec Ideal ⟨1, ![N]⟩ .f32) (idx : IVec ⟨2, ![M, 1]⟩ w) (u : FVec Ideal ⟨1, ![M]⟩ .f32) (n : Fin N) :
    Host.scatterAdd (vecScatter N M wf) y idx u (ix1 n)
      = y (ix1 n) + ∑ e : Fin M, if (idx (ix2 e (0 : Fin 1))).toInt = (n.val : Int) then u (ix1 e) else 0 := by
  show Ideal.hostScatterAdd (vecScatter N M wf) y idx u (ix1 n) = _
  unfold Ideal.hostScatterAdd
  congr 1
  rw [Finset.sum_filter]
  have hsum : ∀ f : (⟨1, ![M]⟩ : Shape).Idx → EReal, ∑ j, f j = ∑ e : Fin M, f (ix1 e) := fun f =>
    (Equiv.sum_comp (⟨fun e => ix1 e, fun j => j 0, fun _ => rfl, fun j => (eq_ix1 j).symm⟩ : Fin M ≃ (⟨1, ![M]⟩ : Shape).Idx) f).symm
  rw [hsum]
  refine Finset.sum_congr rfl fun e _ => ?_
  simp only [vec_lands_iff]

end Cert.LibIndexOps

end
-- ==== Proof.KernelTail.lean ====
/-
  The host operations of the idealized kernel program, stretch by stretch, as functions of the arrays they read,
  and what each computes entry by entry.

  Before the first region the program splits the [2, M] position array into its two rows (source and destination
  words), counts for every node the edges whose destination word is that node (an accumulation of ones), adds one,
  and takes the reciprocal square root: the vector d, handed to the regions as a column. After a region has produced
  hs (n, q) = (x W) (n, q) * d n, the stretch that follows looks hs up through the wrapped source words, accumulates
  the looked-up rows by destination word, adds hs, scales row n by d n and adds the bias: one layer in the first
  arrangement of Spec.lean. Between the two layers sits the rectifier.
-/
import proofs.«104957_j37477884625100_2_alg».proof.KernelIdeal
import proofs.«104957_j37477884625100_2_alg».proof.Proof.Gen.KernelIdeal
import proofs.«104957_j37477884625100_2_alg».proof.Proof.Spec
import proofs.«104957_j37477884625100_2_alg».proof.Proof.LibIndexOps
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.KernelIdeal.Tail

open Idealize.ShloMosaic Idealize.ShloMosaic.ValueIdx Cert.KernelIdeal Cert.KernelIdeal.Facts₀ Cert.Gcn
open scoped BigOperators

/-! ## The stretches as functions -/

/-- Row r of the [2, M] position array as a vector of M words. -/
def srcW (a1 : IVec S2x500000 32) : IVec S500000 32 :=
  shapeCast _ (extractStridedSlice S1x500000 ![0, 0] a1 slices_S2x500000_S1x500000_0_0) shapeCasts_S1x500000_S500000
def dstW (a1 : IVec S2x500000 32) : IVec S500000 32 :=
  shapeCast _ (extractStridedSlice S1x500000 ![1, 0] a1 slices_S2x500000_S1x500000_1_0) shapeCasts_S1x500000_S500000

/-- The vector d from the destination words: ones accumulated by destination from zero, plus one, reciprocal square root. -/
def dinvV (d : IVec S500000 32) : FVec Ideal S50000 .f32 :=
  Host.rsqrt (addf
    (Host.scatterAdd scatter_S50000_S500000x1_S500000_n_0_0_1
      (broadcastInDim S50000 ![] bcast_S_S50000 (constant (F := Ideal) S_ .f32 0x00000000#32))
      (broadcastInDim S500000x1 ![0] bcast_S500000_S500000x1_0 d)
      (broadcastInDim S500000 ![] bcast_S_S500000 (constant (F := Ideal) S_ .f32 0x3F800000#32)))
    (broadcastInDim S50000 ![] bcast_S_S50000 (constant (F := Ideal) S_ .f32 0x3F800000#32)))

/-- A vector of N entries as an [N, 1] column (what the regions are handed). -/
def col (v : FVec Ideal S50000 .f32) : FVec Ideal S50000x1 .f32 := shapeCast _ v shapeCasts_S50000_S50000x1

/-- The source words with 50000 added to the negative ones, entry by entry. -/
def wrapV (s : IVec S500000 32) : IVec S500000 32 :=
  select (cmpi .slt s (broadcastInDim S500000 ![] bcast_S_S500000 (constantI S_ 32 0#32)))
    (addi s (broadcastInDim S500000 ![] bcast_S_S500000 (constantI S_ 32 50000#32))) s

/-- The stretch after the first region: look up, accumulate, add hs, scale by d, add the bias (feature width 128). -/
def tail1 (hs : FVec Ideal S50000x128 .f32) (s d : IVec S500000 32) (v : FVec Ideal S50000 .f32) (b : FVec Ideal S128 .f32) :
    FVec Ideal S50000x128 .f32 :=
  addf
    (mulf (broadcastInDim S50000x128 ![0, 1] bcast_S50000x1_S50000x128_0_1 (broadcastInDim S50000x1 ![0] bcast_S50000_S50000x1_0 v))
      (addf
        (Host.scatterAdd scatter_S50000x128_S500000x1_S500000x128_1_0_0_1
          (broadcastInDim S50000x128 ![] bcast_S_S50000x128 (constant (F := Ideal) S_ .f32 0x00000000#32))
          (broadcastInDim S500000x1 ![0] bcast_S500000_S500000x1_0 d)
          (Host.gather gather_S50000x128_S500000x1_S500000x128_1_0_n_n_0_1_1128 hs
            (broadcastInDim S500000x1 ![0] bcast_S500000_S500000x1_0 (wrapV s))))
        hs))
    (broadcastInDim S50000x128 ![0, 1] bcast_S1x128_S50000x128_0_1 (broadcastInDim S1x128 ![1] bcast_S128_S1x128_1 b))

/-- The rectifier on the hidden layer. -/
def reluV (x : FVec Ideal S50000x128 .f32) : FVec Ideal S50000x128 .f32 :=
  maximumf x (broadcastInDim S50000x128 ![] bcast_S_S50000x128 (constant (F := Ideal) S_ .f32 0x00000000#32))

/-- The stretch after the second region: the same with feature width 64. -/
def tail2 (hs : FVec Ideal S50000x64 .f32) (s d : IVec S500000 32) (v : FVec Ideal S50000 .f32) (b : FVec Ideal S64 .f32) :
    FVec Ideal S50000x64 .f32 :=
  addf
    (mulf (broadcastInDim S50000x64 ![0, 1] bcast_S50000x1_S50000x64_0_1 (broadcastInDim S50000x1 ![0] bcast_S50000_S50000x1_0 v))
      (addf
        (Host.scatterAdd scatter_S50000x64_S500000x1_S500000x64_1_0_0_1
          (broadcastInDim S50000x64 ![] bcast_S_S50000x64 (constant (F := Ideal) S_ .f32 0x00000000#32))
          (broadcastInDim S500000x1 ![0] bcast_S500000_S500000x1_0 d)
          (Host.gather gather_S50000x64_S500000x1_S500000x64_1_0_n_n_0_1_164 hs
            (broadcastInDim S500000x1 ![0] bcast_S500000_S500000x1_0 (wrapV s))))
        hs))
    (broadcastInDim S50000x64 ![0, 1] bcast_S1x64_S50000x64_0_1 (broadcastInDim S1x64 ![1] bcast_S64_S1x64_1 b))

end Cert.KernelIdeal.Tail

end
-- ==== Proof.KernelHost.lean ====
/-
  The contents of the buffers that matter at each boundary of the idealized kernel program's run, as the stretch
  functions of KernelTail.lean applied to the launch contents of the argument arrays.

  A host stretch writes each of its results once and nothing else, so after it a result holds its operation applied to
  the contents before, and every other buffer holds what it held; a region rewrites only its own output array. Walking
  back from the result through the three stretches and the two regions gives the result as: the second stretch
  function of the second region's output; that output's inputs as the rectifier of the first stretch function of the
  first region's output; and the vector d and the position words computed once, before the first region.
-/
import proofs.«104957_j37477884625100_2_alg».proof.Proof.Gen.KernelIdeal.Frame
import proofs.«104957_j37477884625100_2_alg».proof.Proof.KernelTail

set_option maxRecDepth 16384

noncomputable section

namespace Cert.KernelIdeal.Host

open Cert.KernelIdeal Cert.KernelIdeal.Gen Cert.KernelIdeal.Tail
open Idealize.ShloMosaic Idealize.ShloMosaic.TcCoe Idealize.ShloMosaic.StableHlo Idealize.SL.Sem

variable (m : (ℓ : Loc nD τ sig) → Buf (Elt Ideal) ℓ) (ρ : Dev nD → PrngReg)

/-! ## Before the first region -/

theorem W1_arg0 (c : Dev nD) : W1 m ρ c (Proc.devRef .tc main_arg0) = m ((c.tc : Thread nD τ).loc main_arg0) := by
  show StableHlo.after hostOps0 (W0 m ρ c) (Proc.devRef .tc main_arg0) = _
  after_results
theorem W1_arg2 (c : Dev nD) : W1 m ρ c (Proc.devRef .tc main_arg2) = m ((c.tc : Thread nD τ).loc main_arg2) := by
  show StableHlo.after hostOps0 (W0 m ρ c) (Proc.devRef .tc main_arg2) = _
  after_results
theorem W1_arg3 (c : Dev nD) : W1 m ρ c (Proc.devRef .tc main_arg3) = m ((c.tc : Thread nD τ).loc main_arg3) := by
  show StableHlo.after hostOps0 (W0 m ρ c) (Proc.devRef .tc main_arg3) = _
  after_results
theorem W1_arg4 (c : Dev nD) : W1 m ρ c (Proc.devRef .tc main_arg4) = m ((c.tc : Thread nD τ).loc main_arg4) := by
  show StableHlo.after hostOps0 (W0 m ρ c) (Proc.devRef .tc main_arg4) = _
  after_results
theorem W1_arg5 (c : Dev nD) : W1 m ρ c (Proc.devRef .tc main_arg5) = m ((c.tc : Thread nD τ).loc main_arg5) := by
  show StableHlo.after hostOps0 (W0 m ρ c) (Proc.devRef .tc main_arg5) = _
  after_results

/-- The source words. -/
theorem W1_v1 (c : Dev nD) : W1 m ρ c (Proc.devRef .tc main_v1) = srcW (m ((c.tc : Thread nD τ).loc main_arg1)) := by
  show StableHlo.after hostOps0 (W0 m ρ c) (Proc.devRef .tc main_v1) = _
  after_results
  rfl
/-- The destination words. -/
theorem W1_v3 (c : Dev nD) : W1 m ρ c (Proc.devRef .tc main_v3) = dstW (m ((c.tc : Thread nD τ).loc main_arg1)) := by
  show StableHlo.after hostOps0 (W0 m ρ c) (Proc.devRef .tc main_v3) = _
  after_results
  rfl
/-- The vector d. -/
theorem W1_v10 (c : Dev nD) : W1 m ρ c (Proc.devRef .tc main_v10) = dinvV (dstW (m ((c.tc : Thread nD τ).loc main_arg1))) := by
  show StableHlo.after hostOps0 (W0 m ρ c) (Proc.devRef .tc main_v10) = _
  after_results
  rfl
/-- The vector d as the column the first region is handed. -/
theorem W1_v11 (c : Dev nD) : W1 m ρ c (Proc.devRef .tc main_v11) = col (dinvV (dstW (m ((c.tc : Thread nD τ).loc main_arg1)))) := by
  show StableHlo.after hostOps0 (W0 m ρ c) (Proc.devRef .tc main_v11) = _
  after_results
  rfl

/-! ## At the first region's exit: its output array is what its write-backs leave, everything else is kept -/

theorem W2_v12 (c : Dev nD) : W2 m ρ c (Proc.devRef .tc main_v12) = (dat0 (V1 m ρ) c).arrAt 3 cfg0.N := W2_arr m ρ c 3
theorem W2_v1 (c : Dev nD) : W2 m ρ c (Proc.devRef .tc main_v1) = srcW (m ((c.tc : Thread nD τ).loc main_arg1)) :=
  (W2_of_ne m ρ c main_v1 (by decide)).trans (W1_v1 m ρ c)
theorem W2_v3 (c : Dev nD) : W2 m ρ c (Proc.devRef .tc main_v3) = dstW (m ((c.tc : Thread nD τ).loc main_arg1)) :=
  (W2_of_ne m ρ c main_v3 (by decide)).trans (W1_v3 m ρ c)
theorem W2_v10 (c : Dev nD) : W2 m ρ c (Proc.devRef .tc main_v10) = dinvV (dstW (m ((c.tc : Thread nD τ).loc main_arg1))) :=
  (W2_of_ne m ρ c main_v10 (by decide)).trans (W1_v10 m ρ c)
theorem W2_arg3 (c : Dev nD) : W2 m ρ c (Proc.devRef .tc main_arg3) = m ((c.tc : Thread nD τ).loc main_arg3) :=
  (W2_of_ne m ρ c main_arg3 (by decide)).trans (W1_arg3 m ρ c)
theorem W2_arg4 (c : Dev nD) : W2 m ρ c (Proc.devRef .tc main_arg4) = m ((c.tc : Thread nD τ).loc main_arg4) :=
  (W2_of_ne m ρ c main_arg4 (by decide)).trans (W1_arg4 m ρ c)
theorem W2_arg5 (c : Dev nD) : W2 m ρ c (Proc.devRef .tc main_arg5) = m ((c.tc : Thread nD τ).loc main_arg5) :=
  (W2_of_ne m ρ c main_arg5 (by decide)).trans (W1_arg5 m ρ c)

/-! ## Between the regions: the first layer's stretch, the rectifier, the column again -/

set_option maxHeartbeats 8000000 in
/-- The hidden layer the second region reads. -/
theorem W5_v30 (c : Dev nD) : W5 m ρ c (Proc.devRef .tc main_v30)
    = reluV (tail1 (W2 m ρ c (Proc.devRef .tc main_v12)) (W2 m ρ c (Proc.devRef .tc main_v1)) (W2 m ρ c (Proc.devRef .tc main_v3)) (W2 m ρ c (Proc.devRef .tc main_v10)) (W2 m ρ c (Proc.devRef .tc main_arg3))) := by
  show StableHlo.after hostOps1_2 (StableHlo.after hostOps1_1 (StableHlo.after hostOps1 (W2 m ρ c))) (Proc.devRef .tc main_v30) = _
  after_results_simp <;> rfl
theorem W5_v31 (c : Dev nD) : W5 m ρ c (Proc.devRef .tc main_v31) = col (W2 m ρ c (Proc.devRef .tc main_v10)) := by
  show StableHlo.after hostOps1_2 (StableHlo.after hostOps1_1 (StableHlo.after hostOps1 (W2 m ρ c))) (Proc.devRef .tc main_v31) = _
  after_results
  rfl
theorem W5_v1 (c : Dev nD) : W5 m ρ c (Proc.devRef .tc main_v1) = W2 m ρ c (Proc.devRef .tc main_v1) := by
  show StableHlo.after hostOps1_2 (StableHlo.after hostOps1_1 (StableHlo.after hostOps1 (W2 m ρ c))) (Proc.devRef .tc main_v1) = _
  after_results
theorem W5_v3 (c : Dev nD) : W5 m ρ c (Proc.devRef .tc main_v3) = W2 m ρ c (Proc.devRef .tc main_v3) := by
  show StableHlo.after hostOps1_2 (StableHlo.after hostOps1_1 (StableHlo.after hostOps1 (W2 m ρ c))) (Proc.devRef .tc main_v3) = _
  after_results
theorem W5_v10 (c : Dev nD) : W5 m ρ c (Proc.devRef .tc main_v10) = W2 m ρ c (Proc.devRef .tc main_v10) := by
  show StableHlo.after hostOps1_2 (StableHlo.after hostOps1_1 (StableHlo.after hostOps1 (W2 m ρ c))) (Proc.devRef .tc main_v10) = _
  after_results
theorem W5_arg4 (c : Dev nD) : W5 m ρ c (Proc.devRef .tc main_arg4) = W2 m ρ c (Proc.devRef .tc main_arg4) := by
  show StableHlo.after hostOps1_2 (StableHlo.after hostOps1_1 (StableHlo.after hostOps1 (W2 m ρ c))) (Proc.devRef .tc main_arg4) = _
  after_results
theorem W5_arg5 (c : Dev nD) : W5 m ρ c (Proc.devRef .tc main_arg5) = W2 m ρ c (Proc.devRef .tc main_arg5) := by
  show StableHlo.after hostOps1_2 (StableHlo.after hostOps1_1 (StableHlo.after hostOps1 (W2 m ρ c))) (Proc.devRef .tc main_arg5) = _
  after_results

/-! ## At the second region's exit -/

theorem W6_v32 (c : Dev nD) : W6 m ρ c (Proc.devRef .tc main_v32) = (dat1 (V5 m ρ) c).arrAt 3 cfg1.N := W6_arr m ρ c 3
theorem W6_v1 (c : Dev nD) : W6 m ρ c (Proc.devRef .tc main_v1) = srcW (m ((c.tc : Thread nD τ).loc main_arg1)) :=
  (W6_of_ne m ρ c main_v1 (by decide)).trans ((W5_v1 m ρ c).trans (W2_v1 m ρ c))
theorem W6_v3 (c : Dev nD) : W6 m ρ c (Proc.devRef .tc main_v3) = dstW (m ((c.tc : Thread nD τ).loc main_arg1)) :=
  (W6_of_ne m ρ c main_v3 (by decide)).trans ((W5_v3 m ρ c).trans (W2_v3 m ρ c))
theorem W6_v10 (c : Dev nD) : W6 m ρ c (Proc.devRef .tc main_v10) = dinvV (dstW (m ((c.tc : Thread nD τ).loc main_arg1))) :=
  (W6_of_ne m ρ c main_v10 (by decide)).trans ((W5_v10 m ρ c).trans (W2_v10 m ρ c))
theorem W6_arg5 (c : Dev nD) : W6 m ρ c (Proc.devRef .tc main_arg5) = m ((c.tc : Thread nD τ).loc main_arg5) :=
  (W6_of_ne m ρ c main_arg5 (by decide)).trans ((W5_arg5 m ρ c).trans (W2_arg5 m ρ c))

/-! ## After the second region: the second layer's stretch -/

set_option maxHeartbeats 8000000 in
/-- The result. -/
theorem W7_v49 (c : Dev nD) : W7 m ρ c (Proc.devRef .tc main_v49)
    = tail2 (W6 m ρ c (Proc.devRef .tc main_v32)) (W6 m ρ c (Proc.devRef .tc main_v1)) (W6 m ρ c (Proc.devRef .tc main_v3)) (W6 m ρ c (Proc.devRef .tc main_v10)) (W6 m ρ c (Proc.devRef .tc main_arg5)) := by
  show StableHlo.after hostOps2 (W6 m ρ c) (Proc.devRef .tc main_v49) = _
  after_results_simp <;> rfl

end Cert.KernelIdeal.Host

end
-- ==== Proof.LibHostRead.lean ====
/-
  A jnp reference's host operations read at an index, on the extended reals, for any extents.

  The broadcasts a reduction with keepdims or a row / column operand prints: a vector kept as a one-column or one-row
  matrix, a one-column or one-row matrix spread over the other axis, the same with a trailing unit axis of a three-axis
  array; a literal splat to any shape; the host's sum over the last axis of a matrix or of a three-axis array from an
  initial value that is zero, as the plain sum over that axis's coordinates; the host's quotient, square root,
  reciprocal square root and logarithm entry by entry; and a reshape that splits the second axis of a matrix in two:
  entry (r, k, p) of the [a, c, d] array is entry (r, k · d + p) of the [a, c · d] matrix.
-/
import Idealize.ShloMosaic.Lib.ValueIdx
import Idealize.ShloMosaic.Lib.Pipeline.Value
import Idealize.ShloMosaic.PureOps.Ideal.Laws

noncomputable section

namespace Cert.LibHostRead

open Idealize.ShloMosaic Idealize.ShloMosaic.ValueIdx
open scoped BigOperators

/-! ## Host operations read at an index, for any extents -/

section Helpers
variable {α : Type}

/-- A splat of a literal, broadcast to any shape, is the literal's value at every index. -/
theorem bcastConst_apply {s t : Shape} (dims : Fin s.rank → Fin t.rank) (h : s.BroadcastsInDim t dims) (w : BitVec 32)
    (j : t.Idx) : broadcastInDim t dims h (constant (F := Ideal) s .f32 w) j = Ideal.ofBits .f32 w := rfl

/-- A vector kept as a one-column matrix reads, at `(r, z)`, entry `r`. -/
theorem bcast_a_a1_apply {a : ℕ} (x : (⟨1, ![a]⟩ : Shape).Idx → α)
    (h : (⟨1, ![a]⟩ : Shape).BroadcastsInDim ⟨2, ![a, 1]⟩ (![0] : Fin 1 → Fin 2)) (r : Fin a) (z : Fin 1) :
    broadcastInDim ⟨2, ![a, 1]⟩ (![0] : Fin 1 → Fin 2) h x (ix2 r z) = x (ix1 r) := by
  refine broadcastInDim_apply _ h x (ix2 r z) (ix1 r) fun ax => ?_
  match ax with
  | ⟨0, _⟩ =>
    show r.val = if a = 1 then 0 else r.val
    split
    · have := r.isLt; omega
    · rfl

/-- A one-column matrix spread over `b` columns reads, at `(r, d)`, the column's entry of row `r`. -/
theorem bcast_a1_ab_apply {a b : ℕ} (x : (⟨2, ![a, 1]⟩ : Shape).Idx → α)
    (h : (⟨2, ![a, 1]⟩ : Shape).BroadcastsInDim ⟨2, ![a, b]⟩ (![0, 1] : Fin 2 → Fin 2)) (r : Fin a) (d : Fin b) :
    broadcastInDim ⟨2, ![a, b]⟩ (![0, 1] : Fin 2 → Fin 2) h x (ix2 r d) = x (ix2 r (0 : Fin 1)) := by
  refine broadcastInDim_apply _ h x (ix2 r d) (ix2 r (0 : Fin 1)) fun ax => ?_
  match ax with
  | ⟨0, _⟩ =>
    show r.val = if a = 1 then 0 else r.val
    split
    · have := r.isLt; omega
    · rfl
  | ⟨1, _⟩ =>
    show (0 : ℕ) = if (1 : ℕ) = 1 then 0 else d.val
    rw [if_pos rfl]

/-- A vector kept as a one-row matrix reads, at `(z, d)`, entry `d`. -/
theorem bcast_b_1b_apply {b : ℕ} (x : (⟨1, ![b]⟩ : Shape).Idx → α)
    (h : (⟨1, ![b]⟩ : Shape).BroadcastsInDim ⟨2, ![1, b]⟩ (![1] : Fin 1 → Fin 2)) (z : Fin 1) (d : Fin b) :
    broadcastInDim ⟨2, ![1, b]⟩ (![1] : Fin 1 → Fin 2) h x (ix2 z d) = x (ix1 d) := by
  refine broadcastInDim_apply _ h x (ix2 z d) (ix1 d) fun ax => ?_
  match ax with
  | ⟨0, _⟩ =>
    show d.val = if b = 1 then 0 else d.val
    split
    · have := d.isLt; omega
    · rfl

/-- A one-row matrix spread over `a` rows reads, at `(r, d)`, the row's entry of column `d`. -/
theorem bcast_1b_ab_apply {a b : ℕ} (x : (⟨2, ![1, b]⟩ : Shape).Idx → α)
    (h : (⟨2, ![1, b]⟩ : Shape).BroadcastsInDim ⟨2, ![a, b]⟩ (![0, 1] : Fin 2 → Fin 2)) (r : Fin a) (d : Fin b) :
    broadcastInDim ⟨2, ![a, b]⟩ (![0, 1] : Fin 2 → Fin 2) h x (ix2 r d) = x (ix2 (0 : Fin 1) d) := by
  refine broadcastInDim_apply _ h x (ix2 r d) (ix2 (0 : Fin 1) d) fun ax => ?_
  match ax with
  | ⟨0, _⟩ =>
    show (0 : ℕ) = if (1 : ℕ) = 1 then 0 else r.val
    rw [if_pos rfl]
  | ⟨1, _⟩ =>
    show d.val = if b = 1 then 0 else d.val
    split
    · have := d.isLt; omega
    · rfl

/-- A vector spread over the rows of a matrix, through a one-row matrix: at `(r, d)`, entry `d`. -/
theorem bcastRow_apply {a b : ℕ} (x : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (r : Fin a) (d : Fin b) :
    broadcastInDim ⟨2, ![a, b]⟩ (![0, 1] : Fin 2 → Fin 2) h2 (broadcastInDim ⟨2, ![1, b]⟩ (![1] : Fin 1 → Fin 2) h1 x) (ix2 r d)
      = x (ix1 d) :=
  (bcast_1b_ab_apply _ h2 r d).trans (bcast_b_1b_apply x h1 0 d)

/-- An `[a, b]` array kept as `[a, b, 1]` reads, at `(i, j, z)`, entry `(i, j)`. -/
theorem bcast_ab_ab1_apply {a b : ℕ} (x : (⟨2, ![a, b]⟩ : Shape).Idx → α)
    (h : (⟨2, ![a, b]⟩ : Shape).BroadcastsInDim ⟨3, ![a, b, 1]⟩ (![0, 1] : Fin 2 → Fin 3)) (i : Fin a) (j : Fin b) (z : Fin 1) :
    broadcastInDim ⟨3, ![a, b, 1]⟩ (![0, 1] : Fin 2 → Fin 3) h x (ix3 i j z) = x (ix2 i j) := by
  refine broadcastInDim_apply _ h x (ix3 i j z) (ix2 i j) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl

/-- An `[a, b, 1]` array spread over `c` entries of the last axis reads, at `(i, j, k)`, entry `(i, j, 0)`. -/
theorem bcast_ab1_abc_apply {a b c : ℕ} (x : (⟨3, ![a, b, 1]⟩ : Shape).Idx → α)
    (h : (⟨3, ![a, b, 1]⟩ : Shape).BroadcastsInDim ⟨3, ![a, b, c]⟩ (![0, 1, 2] : Fin 3 → Fin 3)) (i : Fin a) (j : Fin b) (k : Fin c) :
    broadcastInDim ⟨3, ![a, b, c]⟩ (![0, 1, 2] : Fin 3 → Fin 3) h x (ix3 i j k) = x (ix3 i j (0 : Fin 1)) := by
  refine broadcastInDim_apply _ h x (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show (0 : ℕ) = if (1 : ℕ) = 1 then 0 else k.val
    rw [if_pos rfl]

/-- The host's sum of each row of a matrix, from an initial value that is zero: at row `r`, the sum over the columns. -/
theorem hostSumAxis1_apply {a b : ℕ} (x : (⟨2, ![a, b]⟩ : Shape).Idx → EReal) {u : Shape} (init : u.Idx → EReal)
    (h' : (⟨2, ![a, b]⟩ : Shape).ReducesTo [1] ⟨1, ![a]⟩) (hu : 0 < u.numel)
    (hinit : init (Shape.Idx.first hu) = 0) (r : Fin a) :
    Host.reduceAdd (F := Ideal) (φ := .f32) x init h' hu (ix1 r) = ∑ d : Fin b, x (ix2 r d) := by
  have h : (⟨2, ![a, b]⟩ : Shape).Reduces [1] ⟨1, ![a]⟩ := ⟨h'.1, Nat.one_pos, h'.2⟩
  show Ideal.hostReduceAdd h' x (init (Shape.Idx.first hu)) (ix1 r) = _
  rw [hinit, Ideal.hostReduceAdd_single h' h x 0 (ix1 r), zero_add]
  exact Finset.sum_congr rfl fun k _ => congrArg x (funext fun ax => Fin.ext (match ax with | ⟨0, _⟩ => rfl | ⟨1, _⟩ => rfl))

/-- The host's sum over the last axis of a three-axis array, from zero: at `(i, j)`, the sum over `k` of the entries `(i, j, k)`. -/
theorem hostSumAxis2_apply {a b c : ℕ} (x : (⟨3, ![a, b, c]⟩ : Shape).Idx → EReal) {u : Shape} (init : u.Idx → EReal)
    (h' : (⟨3, ![a, b, c]⟩ : Shape).ReducesTo [2] ⟨2, ![a, b]⟩) (hu : 0 < u.numel)
    (hinit : init (Shape.Idx.first hu) = 0) (i : Fin a) (j : Fin b) :
    Host.reduceAdd (F := Ideal) (φ := .f32) x init h' hu (ix2 i j) = ∑ k : Fin c, x (ix3 i j k) := by
  have h : (⟨3, ![a, b, c]⟩ : Shape).Reduces [2] ⟨2, ![a, b]⟩ := ⟨h'.1, Nat.two_pos, h'.2⟩
  show Ideal.hostReduceAdd h' x (init (Shape.Idx.first hu)) (ix2 i j) = _
  rw [hinit, Ideal.hostReduceAdd_single h' h x 0 (ix2 i j), zero_add]
  refine Finset.sum_congr rfl fun k _ => congrArg x (funext fun ax => Fin.ext ?_)
  match ax with
  | ⟨0, _⟩ => rfl
  | ⟨1, _⟩ => rfl
  | ⟨2, _⟩ => rfl

end Helpers

/-! ## Pointwise host operations at the extended reals -/

theorem hostDivf_apply {s : Shape} (x y : FVec Ideal s .f32) (i : s.Idx) : Host.divf x y i = Ideal.div (x i) (y i) := rfl
theorem hostSqrt_apply {s : Shape} (x : FVec Ideal s .f32) (i : s.Idx) : Host.sqrt x i = Ideal.sqrt (x i) := rfl
theorem hostRsqrt_apply {s : Shape} (x : FVec Ideal s .f32) (i : s.Idx) : Host.rsqrt x i = Ideal.rsqrt (x i) := rfl
theorem hostLog_apply {s : Shape} (x : FVec Ideal s .f32) (i : s.Idx) : Host.log x i = Ideal.log (x i) := rfl

/-- A matrix whose second axis is split in two reads, at `(r, k, p)`, the matrix at `(r, k · d + p)`. -/
theorem shapeCast_ab_acd_apply {α : Type} {a b c d : ℕ} (X : (⟨2, ![a, b]⟩ : Shape).Idx → α)
    (h : (⟨2, ![a, b]⟩ : Shape).ShapeCasts ⟨3, ![a, c, d]⟩) (hb : b = c * d) (r : Fin a) (k : Fin c) (p : Fin d) (kp : Fin b)
    (hkp : kp.val = k.val * d + p.val) : shapeCast ⟨3, ![a, c, d]⟩ X h (ix3 r k p) = X (ix2 r kp) :=
  shapeCast_apply X h _ _ (by
    rw [Shape.rowMajor_val_two, Shape.rowMajor_val_three]
    show r.val * b + kp.val = (r.val * c + k.val) * d + p.val
    rw [hkp, hb]; ring)

end Cert.LibHostRead

end
-- ==== Proof.KernelTailRead.lean ====
/-
  The host stretches of the idealized kernel program read at an index.

  Each stretch of KernelTail.lean is a composition of layout operations (a slice, a reshape, a broadcast), pointwise
  operations, one lookup of rows through position words and one accumulation by position words. Read at one entry:
  a row of the [2, M] position array is that row's words; the vector d at node n is the reciprocal square root of one
  plus the number of edges landing on n; the wrapped source words are the words with 50000 added to the negative ones;
  and the stretch after a region is, at (n, q), d n times (the sum over the edges landing on n of hs at the row looked
  up through the wrapped source word, plus hs (n, q)), plus the bias at q.
-/
import proofs.«104957_j37477884625100_2_alg».proof.Proof.KernelTail
import proofs.«104957_j37477884625100_2_alg».proof.Proof.LibHostRead

noncomputable section

namespace Cert.KernelIdeal.Tail

open Idealize.ShloMosaic Idealize.ShloMosaic.ValueIdx Cert.KernelIdeal Cert.KernelIdeal.Facts₀ Cert.Gcn
open scoped BigOperators

/-! ## Layout stretches -/

/-- The source words are row 0 of the position array. -/
theorem srcW_apply (a1 : IVec S2x500000 32) (e : Fin 500000) : srcW a1 (ix1 e) = a1 (ix2 (0 : Fin 2) e) := by
  unfold srcW
  refine (shapeCast_apply _ shapeCasts_S1x500000_S500000 (ix1 e) (ix2 (0 : Fin 1) e) ?_).trans ?_
  · rw [Shape.rowMajor_val_two, Shape.rowMajor_val_one]
    show (0 : ℕ) * 500000 + e.val = e.val
    omega
  · refine extractStridedSlice_apply _ a1 _ (ix2 (0 : Fin 1) e) (ix2 (0 : Fin 2) e) fun a => ?_
    match a with
    | ⟨0, _⟩ => rfl
    | ⟨1, _⟩ => show e.val = 0 + e.val; omega

/-- The destination words are row 1 of the position array. -/
theorem dstW_apply (a1 : IVec S2x500000 32) (e : Fin 500000) : dstW a1 (ix1 e) = a1 (ix2 (1 : Fin 2) e) := by
  unfold dstW
  refine (shapeCast_apply _ shapeCasts_S1x500000_S500000 (ix1 e) (ix2 (0 : Fin 1) e) ?_).trans ?_
  · rw [Shape.rowMajor_val_two, Shape.rowMajor_val_one]
    show (0 : ℕ) * 500000 + e.val = e.val
    omega
  · refine extractStridedSlice_apply _ a1 _ (ix2 (0 : Fin 1) e) (ix2 (1 : Fin 2) e) fun a => ?_
    match a with
    | ⟨0, _⟩ => rfl
    | ⟨1, _⟩ => show e.val = 0 + e.val; omega

/-- The column handed to the regions holds the vector's entries. -/
theorem col_apply (v : FVec Ideal S50000 .f32) (n : Fin 50000) : col v (ix2 n (0 : Fin 1)) = v (ix1 n) := by
  unfold col
  refine shapeCast_apply v shapeCasts_S50000_S50000x1 (ix2 n (0 : Fin 1)) (ix1 n) ?_
  rw [Shape.rowMajor_val_two, Shape.rowMajor_val_one]
  show n.val = n.val * 1 + 0
  omega

/-- The wrapped words, entry by entry. -/
theorem wrapV_apply (s : IVec S500000 32) (e : Fin 500000) : wrapV s (ix1 e) = wrap (s (ix1 e)) := rfl

/-- The rectifier, entry by entry. -/
theorem reluV_apply (x : FVec Ideal S50000x128 .f32) (i : S50000x128.Idx) : reluV x i = relu (x i) := by
  unfold reluV relu
  rw [maximumf_apply]
  refine congrArg (max (x i)) ?_
  exact Ideal.ofBits_zero_f32

/-! ## The vector d -/

/-- The vector d at node n: the reciprocal square root of one plus the number of edges landing on n. -/
theorem dinvV_apply (d : IVec S500000 32) (n : Fin 50000) :
    dinvV d (ix1 n) = dinv (fun (e : Fin 500000) (n : Fin 50000) => lands (d (ix1 e)) n) n := by
  unfold dinvV dinv deg
  rw [Cert.LibHostRead.hostRsqrt_apply, addf_apply]
  refine congrArg Ideal.rsqrt ?_
  refine congrArg₂ (· + ·) ?_ Ideal.ofBits_one_f32
  refine (Cert.LibIndexOps.scatterAdd_vec_apply (N := 50000) (M := 500000)
    scatter_S50000_S500000x1_S500000_n_0_0_1_wf _ _ _ n).trans ?_
  refine congrArg₂ (· + ·) Ideal.ofBits_zero_f32 ?_
  refine Finset.sum_congr rfl fun e _ => ?_
  have hd : broadcastInDim S500000x1 ![0] bcast_S500000_S500000x1_0 d (ix2 e (0 : Fin 1)) = d (ix1 e) :=
    Cert.LibHostRead.bcast_a_a1_apply d _ e 0
  refine if_congr ?_ Ideal.ofBits_one_f32 rfl
  rw [hd]
  exact Iff.rfl

/-! ## The stretch after a region -/

/-- The stretch after the first region at (n, q). -/
theorem tail1_apply (hs : FVec Ideal S50000x128 .f32) (s d : IVec S500000 32) (v : FVec Ideal S50000 .f32) (b : FVec Ideal S128 .f32)
    (n : Fin 50000) (q : Fin 128) :
    tail1 hs s d v b (ix2 n q)
      = v (ix1 n) * ((0 + ∑ e : Fin 500000, if lands (d (ix1 e)) n then hs (ix2 (pick (s (ix1 e))) q) else 0) + hs (ix2 n q)) + b (ix1 q) := by
  unfold tail1
  rw [addf_apply, mulf_apply, addf_apply]
  have hv : broadcastInDim S50000x128 ![0, 1] bcast_S50000x1_S50000x128_0_1
      (broadcastInDim S50000x1 ![0] bcast_S50000_S50000x1_0 v) (ix2 n q) = v (ix1 n) :=
    (Cert.LibHostRead.bcast_a1_ab_apply _ bcast_S50000x1_S50000x128_0_1 n q).trans
      (Cert.LibHostRead.bcast_a_a1_apply v bcast_S50000_S50000x1_0 n 0)
  have hb : broadcastInDim S50000x128 ![0, 1] bcast_S1x128_S50000x128_0_1
      (broadcastInDim S1x128 ![1] bcast_S128_S1x128_1 b) (ix2 n q) = b (ix1 q) :=
    Cert.LibHostRead.bcastRow_apply b bcast_S128_S1x128_1 bcast_S1x128_S50000x128_0_1 n q
  rw [hv, hb]
  refine congrArg (fun t => v (ix1 n) * (t + hs (ix2 n q)) + b (ix1 q)) ?_
  refine (Cert.LibIndexOps.scatterAdd_rows_apply (N := 50000) (M := 500000) (D := 128)
    scatter_S50000x128_S500000x1_S500000x128_1_0_0_1_wf _ _ _ n q).trans ?_
  refine congrArg₂ (· + ·) Ideal.ofBits_zero_f32 ?_
  refine Finset.sum_congr rfl fun e _ => ?_
  have hd : broadcastInDim S500000x1 ![0] bcast_S500000_S500000x1_0 d (ix2 e (0 : Fin 1)) = d (ix1 e) :=
    Cert.LibHostRead.bcast_a_a1_apply d _ e 0
  have hw : broadcastInDim S500000x1 ![0] bcast_S500000_S500000x1_0 (wrapV s) (ix2 e (0 : Fin 1)) = wrap (s (ix1 e)) :=
    (Cert.LibHostRead.bcast_a_a1_apply (wrapV s) _ e 0).trans (wrapV_apply s e)
  refine if_congr (by rw [hd]; exact Iff.rfl) ?_ rfl
  refine (Cert.LibIndexOps.gather_rows_apply (N := 50000) (M := 500000) (D := 128) (by norm_num)
    gather_S50000x128_S500000x1_S500000x128_1_0_n_n_0_1_1128_wf hs _ e q).trans ?_
  refine congrArg (fun r => hs (ix2 r q)) ?_
  exact congrArg (fun w : BitVec 32 => (⟨min w.toInt.toNat (50000 - 1), by omega⟩ : Fin 50000)) hw

/-- The stretch after the second region at (n, q): the same with feature width 64. -/
theorem tail2_apply (hs : FVec Ideal S50000x64 .f32) (s d : IVec S500000 32) (v : FVec Ideal S50000 .f32) (b : FVec Ideal S64 .f32)
    (n : Fin 50000) (q : Fin 64) :
    tail2 hs s d v b (ix2 n q)
      = v (ix1 n) * ((0 + ∑ e : Fin 500000, if lands (d (ix1 e)) n then hs (ix2 (pick (s (ix1 e))) q) else 0) + hs (ix2 n q)) + b (ix1 q) := by
  unfold tail2
  rw [addf_apply, mulf_apply, addf_apply]
  have hv : broadcastInDim S50000x64 ![0, 1] bcast_S50000x1_S50000x64_0_1
      (broadcastInDim S50000x1 ![0] bcast_S50000_S50000x1_0 v) (ix2 n q) = v (ix1 n) :=
    (Cert.LibHostRead.bcast_a1_ab_apply _ bcast_S50000x1_S50000x64_0_1 n q).trans
      (Cert.LibHostRead.bcast_a_a1_apply v bcast_S50000_S50000x1_0 n 0)
  have hb : broadcastInDim S50000x64 ![0, 1] bcast_S1x64_S50000x64_0_1
      (broadcastInDim S1x64 ![1] bcast_S64_S1x64_1 b) (ix2 n q) = b (ix1 q) :=
    Cert.LibHostRead.bcastRow_apply b bcast_S64_S1x64_1 bcast_S1x64_S50000x64_0_1 n q
  rw [hv, hb]
  refine congrArg (fun t => v (ix1 n) * (t + hs (ix2 n q)) + b (ix1 q)) ?_
  refine (Cert.LibIndexOps.scatterAdd_rows_apply (N := 50000) (M := 500000) (D := 64)
    scatter_S50000x64_S500000x1_S500000x64_1_0_0_1_wf _ _ _ n q).trans ?_
  refine congrArg₂ (· + ·) Ideal.ofBits_zero_f32 ?_
  refine Finset.sum_congr rfl fun e _ => ?_
  have hd : broadcastInDim S500000x1 ![0] bcast_S500000_S500000x1_0 d (ix2 e (0 : Fin 1)) = d (ix1 e) :=
    Cert.LibHostRead.bcast_a_a1_apply d _ e 0
  have hw : broadcastInDim S500000x1 ![0] bcast_S500000_S500000x1_0 (wrapV s) (ix2 e (0 : Fin 1)) = wrap (s (ix1 e)) :=
    (Cert.LibHostRead.bcast_a_a1_apply (wrapV s) _ e 0).trans (wrapV_apply s e)
  refine if_congr (by rw [hd]; exact Iff.rfl) ?_ rfl
  refine (Cert.LibIndexOps.gather_rows_apply (N := 50000) (M := 500000) (D := 64) (by norm_num)
    gather_S50000x64_S500000x1_S500000x64_1_0_n_n_0_1_164_wf hs _ e q).trans ?_
  refine congrArg (fun r => hs (ix2 r q)) ?_
  exact congrArg (fun w : BitVec 32 => (⟨min w.toInt.toNat (50000 - 1), by omega⟩ : Fin 50000)) hw

end Cert.KernelIdeal.Tail

end
-- ==== Proof.LibDot.lean ====
/-
  A plain matrix product read at an index, at the ideal values: for the dimension numbers
  "contract the left operand's axis 1 with the right operand's axis 0, no batch axis" — the record every
  `jnp.dot` / `x @ y` of two matrices prints, whatever its name — the host's `dot_general` and the kernel's
  matrix-unit product into a zero accumulator are both, at (a, b), the sum over c of A (a, c) * B (c, b).
-/
import Idealize.ShloMosaic.Lib.ValueIdx
import Idealize.ShloMosaic.PureOps.Ideal.Laws

noncomputable section

namespace Cert.LibDot

open Idealize.ShloMosaic Idealize.ShloMosaic.ValueIdx
open scoped BigOperators

variable {m k n : Nat} {φ₁ φ₂ : FTy}

/-- The record: left contracting axis 1, right contracting axis 0, kept axes 0 and 1, no batch axis. -/
abbrev dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

theorem lhsIdx_eq (w : DotDims.WF ⟨2, ![m, k]⟩ ⟨2, ![k, n]⟩ ⟨2, ![m, n]⟩ [1] [0] [0] [1] [] [])
    (a : Fin m) (b : Fin n) (c : Fin k) :
    (dims w).lhsIdx (ix2 a b) ((contrEquiv1 (dims w) k rfl rfl).symm c) = ix2 a c := by
  have c2 := contrEquiv1_symm_val (dims w) k rfl rfl c
  funext ax; apply Fin.ext
  match ax with
  | ⟨0, _⟩ => simp [DotDims.lhsIdx]; rfl
  | ⟨1, _⟩ => simp [DotDims.lhsIdx]; exact c2

theorem rhsIdx_eq (w : DotDims.WF ⟨2, ![m, k]⟩ ⟨2, ![k, n]⟩ ⟨2, ![m, n]⟩ [1] [0] [0] [1] [] [])
    (a : Fin m) (b : Fin n) (c : Fin k) :
    (dims w).rhsIdx (ix2 a b) ((contrEquiv1 (dims w) k rfl rfl).symm c) = ix2 c b := by
  have c2 := contrEquiv1_symm_val (dims w) k rfl rfl c
  funext ax; apply Fin.ext
  match ax with
  | ⟨0, _⟩ => simp [DotDims.rhsIdx]; exact c2
  | ⟨1, _⟩ => simp [DotDims.rhsIdx]; rfl

/-- The host's product of two matrices at (a, b): the sum over the contracted coordinate. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (dims w) prec A B (ix2 a b) = ∑ c : Fin k, A (ix2 a c) * B (ix2 c b) := by
  show FloatOps.dotGeneral _ prec _ A B (ix2 a b) = _
  rw [Ideal.dotGeneral_apply, ← Equiv.sum_comp (contrEquiv1 (dims w) k rfl rfl).symm]
  refine Finset.sum_congr rfl fun c _ => ?_
  rw [lhsIdx_eq, rhsIdx_eq]

/-- The matrix unit's product into a zero accumulator at (a, b): the same sum. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (dims w) prec A B (constant ⟨2, ![m, n]⟩ .f32 0x00000000#32) (ix2 a b) = ∑ c : Fin k, A (ix2 a c) * B (ix2 c b) := by
  show FloatOps.matmul _ prec A B _ (ix2 a b) = _
  rw [Ideal.matmul_constant_zero_apply, ← Equiv.sum_comp (contrEquiv1 (dims w) k rfl rfl).symm]
  refine Finset.sum_congr rfl fun c _ => ?_
  rw [lhsIdx_eq, rhsIdx_eq]

end Cert.LibDot
-- ==== Proof.LibKeepdims.lean ====
/-
  A reduction over the last axis that keeps its dimension: the vector of row results, length a, is viewed as a
  column [a, 1] and the column is then spread over b columns, [a, 1] to [a, b]. Read at (p, c) the result is the
  row result of row p, whatever the column c. Stated for any element type and any extents.
-/
import Idealize.ShloMosaic.Lib.ValueLayout

namespace Idealize.ShloMosaic.ValueIdx

open Idealize.ShloMosaic

variable {α : Type}

/-- An `[a]` array cast to a column `[a, 1]` reads, at `(i, u)`, the operand at `i`, whatever the unit coordinate `u`:
    the row-major position of `(i, u)` in a one-column array is `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a length-`a` vector as a column spread over `b` columns reads, at `(p, c)`, entry `p`. -/
theorem broadcastTo_shapeCast_column_apply {a b : ℕ} (x : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ x hc) hb (ix2 p c) = x (ix1 p) :=
  (broadcastTo_a1_ab_apply _ hb p c).trans (shapeCast_a_a1_apply x hc p 0)

end Idealize.ShloMosaic.ValueIdx
-- ==== Proof.Blocks.lean ====
/-
  From blocks to the array. Each of the two kernel regions walks ten row blocks of 5000 rows; at block t it multiplies
  the row block of the left matrix by the whole right matrix and scales row r of the product by the r-th entry of a
  column. Here the ten blocks are put together: after a region, entry (r, q) of its output array is
  (sum over k of A (r, k) * B (k, q)) * d (r, 0), for every row r of the 50000 and every column q.
-/
import proofs.«104957_j37477884625100_2_alg».proof.Proof.Gen.KernelIdeal.Frame
import proofs.«104957_j37477884625100_2_alg».proof.Proof.LibDot
import proofs.«104957_j37477884625100_2_alg».proof.Proof.LibKeepdims
import Idealize.ShloMosaic.Lib.Pipeline.Value
import Idealize.ShloMosaic.Lib.ValueIdx

noncomputable section

namespace Cert.KernelIdeal.Blocks

open Idealize.ShloMosaic Idealize.ShloMosaic.ValueIdx Idealize.ShloMosaic.TcCoe Cert.KernelIdeal Cert.KernelIdeal.Gen
open Idealize.ShloMosaic.Pipeline (Dat)
open scoped BigOperators

variable (V : (c : Dev nD) → (b : Ref sig .tc) → Buf (Elt Ideal) ((c : Thread nD τ).loc b))

/-- A pair of zero offsets, however spelt. -/
theorem zero_offsets : (![0, 0] : Fin 2 → Nat) = fun _ => 0 := funext fun a => by fin_cases a <;> rfl

/-! ## Region 0: the product with the 128 x 128 matrix, rows scaled -/

/-- Entry (r, q) of the scaled product: row r of A against column q of B, times d (r, 0). -/
def scaledProduct0 (A : S50000x128.Idx → EReal) (B : S128x128.Idx → EReal) (d : S50000x1.Idx → EReal)
    (r : Fin 50000) (q : Fin 128) : EReal :=
  (∑ k : Fin 128, A (ix2 r k) * B (ix2 k q)) * d (ix2 r (0 : Fin 1))

/-- The scaled product as an array. -/
def G0 (A : S50000x128.Idx → EReal) (B : S128x128.Idx → EReal) (d : S50000x1.Idx → EReal) : S50000x128.Idx → EReal :=
  fun i => scaledProduct0 A B d (i 0) (i 1)

/-- What the body computes from its three blocks, at (a, b): row a of the left block against column b of the right
    matrix, times the column block's entry of row a. Rounding to the shorter float type is the identity on ideal values,
    the accumulator starts at zero, and the column is spread over the 128 columns. -/
theorem body0_apply (x0 : Vec Ideal S5000x128 .f32) (x1 : Vec Ideal S128x128 .f32) (x2 : Vec Ideal S5000x1 .f32)
    (a : Fin 5000) (b : Fin 128) :
    k0_pay1 x0 x1 x2 (ix2 a b) = (∑ k : Fin 128, x0 (ix2 a k) * x1 (ix2 k b)) * x2 (ix2 a (0 : Fin 1)) := by
  unfold k0_pay1
  refine (mulf_apply _ _ _).trans ?_
  refine congr (congrArg _ ?_) ?_
  · exact Cert.LibDot.matmul_zero_apply dot_S5000x128_S128x128_S5000x128_1_0_0_1_n_n_wf none
      (truncf .bf16 x0 bitsLt_bf16_f32) (truncf .bf16 x1 bitsLt_bf16_f32) a b
  · exact (broadcastTo_a1_ab_apply _ broadcasts_S5000x1_S5000x128 a b).trans
      (congrFun (shapeCast_self x2 shapeCasts_S5000x1_S5000x1) _)

/-- The ten grid points of region 0. -/
theorem points0 : cfg0.N = 10 := rfl

/-- The index maps, decided over the ten points: at point t the left matrix, the column and the output are at row
    block t (column block 0), and the right matrix is at its one block. -/
theorem index_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The left matrix's block at point t is rows 5000 t ... 5000 t + 4999 of the left matrix. -/
theorem left_block0 (c : Dev nD) (t : Fin cfg0.N) (y : S5000x128.Idx) (i : S50000x128.Idx)
    (h0 : (i 0).val = t.val * 5000 + (y 0).val) (h1 : (i 1).val = (y 1).val) :
    (iblk0 V c 0 t : Vec Ideal S5000x128 .f32) y = (V c main_arg0 : S50000x128.Idx → EReal) i := by
  obtain ⟨e0, e1, -⟩ := index_facts0 t
  unfold iblk0
  rw [View.read_apply]
  show V c main_arg0 _ = V c main_arg0 _
  refine congrArg _ (funext fun a => Fin.ext ?_)
  match a with
  | ⟨0, _⟩ => show win0_0.index t (0 : Fin 2) * 5000 + 1 * (y 0).val = (i 0).val; rw [e0, h0]; omega
  | ⟨1, _⟩ => show win0_0.index t (1 : Fin 2) * 128 + 1 * (y 1).val = (i 1).val; rw [e1, h1]; omega

/-- The right matrix's block at any point is the right matrix. -/
theorem right_block0 (c : Dev nD) (t : Fin cfg0.N) (y : S128x128.Idx) :
    (iblk0 V c 1 t : Vec Ideal S128x128 .f32) y = (V c main_arg2 : S128x128.Idx → EReal) y := by
  obtain ⟨-, -, e0, e1, -⟩ := index_facts0 t
  unfold iblk0
  rw [View.read_apply]
  show V c main_arg2 _ = V c main_arg2 _
  refine congrArg _ (funext fun a => Fin.ext ?_)
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega

/-- The column's block at point t is rows 5000 t ... 5000 t + 4999 of the column. -/
theorem column_block0 (c : Dev nD) (t : Fin cfg0.N) (y : S5000x1.Idx) (i : S50000x1.Idx)
    (h0 : (i 0).val = t.val * 5000 + (y 0).val) (h1 : (i 1).val = (y 1).val) :
    (iblk0 V c 2 t : Vec Ideal S5000x1 .f32) y = (V c main_v11 : S50000x1.Idx → EReal) i := by
  obtain ⟨-, -, -, -, e0, e1, -⟩ := index_facts0 t
  unfold iblk0
  rw [View.read_apply]
  show V c main_v11 _ = V c main_v11 _
  refine congrArg _ (funext fun a => Fin.ext ?_)
  match a with
  | ⟨0, _⟩ => show win0_2.index t (0 : Fin 2) * 5000 + 1 * (y 0).val = (i 0).val; rw [e0, h0]; omega
  | ⟨1, _⟩ => show win0_2.index t (1 : Fin 2) * 1 + 1 * (y 1).val = (i 1).val; rw [e1, h1]; omega

/-- The body's result at an index j of the output block is the scaled product at the array index i, once each block
    agrees with its array along row i 0 (left block, column block) and the right block is the right matrix. -/
theorem body0_at (x0 : Vec Ideal S5000x128 .f32) (x1 : Vec Ideal S128x128 .f32) (x2 : Vec Ideal S5000x1 .f32)
    (A : S50000x128.Idx → EReal) (B : S128x128.Idx → EReal) (d : S50000x1.Idx → EReal)
    (j : S5000x128.Idx) (i : S50000x128.Idx) (hq : (i 1).val = (j 1).val)
    (hA : ∀ k : Fin 128, x0 (ix2 (j 0) k) = A (ix2 (i 0) k))
    (hB : ∀ y : S128x128.Idx, x1 y = B y)
    (hd : x2 (ix2 (j 0) (0 : Fin 1)) = d (ix2 (i 0) (0 : Fin 1))) :
    k0_pay1 x0 x1 x2 j = G0 A B d i := by
  have hq' : (j 1 : Fin 128) = (i 1 : Fin 128) := Fin.ext hq.symm
  refine (congrArg (k0_pay1 x0 x1 x2) (eq_ix2 j)).trans ?_
  refine (body0_apply x0 x1 x2 (j 0) (j 1)).trans ?_
  unfold G0 scaledProduct0
  rw [hd]
  refine congrArg (· * _) (Finset.sum_congr rfl fun k _ => ?_)
  rw [hA k, hB, hq']

/-- What point t writes back is block t of the scaled product of the arrays as the region finds them. -/
theorem flushed0 (c : Dev nD) (t : Fin cfg0.N) :
    (dat0 (F := Ideal) V c).flushed 3 t
      = ((cfg0.win 3).blk t).view.read (Elt Ideal) (G0 (V c main_arg0) (V c main_arg2) (V c main_v11)) := by
  show (cfg0.win 3).cut (grid0.coords t) ((dat0 V c).after 3 t) = _
  rw [after0_3]
  unfold out0_3
  rw [View.canon_unit_zero zero_offsets]
  simp only [View.ld_unit_zero (S := S5000x128) zero_offsets, View.ld_unit_zero (S := S128x128) zero_offsets,
    View.ld_unit_zero (S := S5000x1) zero_offsets]
  obtain ⟨-, -, -, -, -, -, e0, e1⟩ := index_facts0 t
  funext j
  show k0_pay1 (iblk0 V c 0 t) (iblk0 V c 1 t) (iblk0 V c 2 t) j
    = G0 (V c main_arg0) (V c main_arg2) (V c main_v11) (((cfg0.win 3).blk t).view.emb j)
  have hr : ((((cfg0.win 3).blk t).view.emb j) 0).val = t.val * 5000 + (j 0).val := by
    show win0_3.index t (0 : Fin 2) * 5000 + 1 * (j 0).val = _
    rw [e0]; omega
  have hq : ((((cfg0.win 3).blk t).view.emb j) 1).val = (j 1).val := by
    show win0_3.index t (1 : Fin 2) * 128 + 1 * (j 1).val = _
    rw [e1]; omega
  exact body0_at (iblk0 V c 0 t) (iblk0 V c 1 t) (iblk0 V c 2 t) (V c main_arg0) (V c main_arg2) (V c main_v11)
    j (((cfg0.win 3).blk t).view.emb j) hq
    (fun k => left_block0 V c t (ix2 (j 0) k) (ix2 ((((cfg0.win 3).blk t).view.emb j) 0) k) hr rfl)
    (fun y => right_block0 V c t y)
    (column_block0 V c t (ix2 (j 0) (0 : Fin 1)) (ix2 ((((cfg0.win 3).blk t).view.emb j) 0) (0 : Fin 1)) hr rfl)

/-- An index of the array is in point t's block iff each coordinate is in the block's range on its axis. -/
theorem mem_block0 (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v12).slice (win0_3.rect t)).set ↔ _
  rw [View.set_slice_whole, Rect.mem_set_unit]
  exact Iff.rfl

/-- Every row r of the array is in the block of point r / 5000: the ten row blocks fill the array. -/
theorem cover0 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 10 := points0
  obtain ⟨t, ht⟩ : ∃ t : Fin cfg0.N, t.val = (i 0).val / 5000 := ⟨⟨(i 0).val / 5000, by omega⟩, rfl⟩
  obtain ⟨-, -, -, -, -, -, e0, e1⟩ := index_facts0 t
  refine ⟨t, flush0_3 t, ?_⟩
  rw [mem_block0]
  intro a
  match a with
  | ⟨0, _⟩ =>
    show win0_3.index t (0 : Fin 2) * 5000 ≤ (i 0).val ∧ (i 0).val < win0_3.index t (0 : Fin 2) * 5000 + 5000
    rw [e0]; omega
  | ⟨1, _⟩ =>
    show win0_3.index t (1 : Fin 2) * 128 ≤ (i 1).val ∧ (i 1).val < win0_3.index t (1 : Fin 2) * 128 + 128
    rw [e1]; omega

/-- The output array of region 0 after its ten points: the scaled product of the arrays the region finds. -/
theorem array0 (c : Dev nD) :
    (dat0 (F := Ideal) V c).arrAt 3 cfg0.N = G0 (V c main_arg0) (V c main_arg2) (V c main_v11) :=
  (dat0 (F := Ideal) V c).arrAt_eq_of_cover 3 (G0 (V c main_arg0) (V c main_arg2) (V c main_v11))
    (fun t _ => flushed0 V c t) cover0

/-- Entry (r, q) of region 0's output array, the three arrays the region finds named A, B, d. -/
theorem arr0 (c : Dev nD) (A : S50000x128.Idx → EReal) (B : S128x128.Idx → EReal) (d : S50000x1.Idx → EReal)
    (hA : V c main_arg0 = A) (hB : V c main_arg2 = B) (hd : V c main_v11 = d) (r : Fin 50000) (q : Fin 128) :
    ((dat0 (F := Ideal) V c).arrAt 3 cfg0.N : S50000x128.Idx → EReal) (ix2 r q)
      = (∑ k : Fin 128, A (ix2 r k) * B (ix2 k q)) * d (ix2 r (0 : Fin 1)) := by
  subst hA hB hd
  rw [array0]
  rfl

/-! ## Region 1: the product with the 128 x 64 matrix, rows scaled -/

/-- Entry (r, q) of the scaled product: row r of A against column q of B, times d (r, 0). -/
def scaledProduct1 (A : S50000x128.Idx → EReal) (B : S128x64.Idx → EReal) (d : S50000x1.Idx → EReal)
    (r : Fin 50000) (q : Fin 64) : EReal :=
  (∑ k : Fin 128, A (ix2 r k) * B (ix2 k q)) * d (ix2 r (0 : Fin 1))

/-- The scaled product as an array. -/
def G1 (A : S50000x128.Idx → EReal) (B : S128x64.Idx → EReal) (d : S50000x1.Idx → EReal) : S50000x64.Idx → EReal :=
  fun i => scaledProduct1 A B d (i 0) (i 1)

/-- What the body computes from its three blocks, at (a, b): row a of the left block against column b of the right
    matrix, times the column block's entry of row a. The cast of the left block to its own shape and the rounding to
    the shorter float type are the identity on ideal values, the accumulator starts at zero, and the column is spread
    over the 64 columns. -/
theorem body1_apply (x0 : Vec Ideal S5000x128 .f32) (x1 : Vec Ideal S128x64 .f32) (x2 : Vec Ideal S5000x1 .f32)
    (a : Fin 5000) (b : Fin 64) :
    k1_pay1 x0 x1 x2 (ix2 a b) = (∑ k : Fin 128, x0 (ix2 a k) * x1 (ix2 k b)) * x2 (ix2 a (0 : Fin 1)) := by
  unfold k1_pay1
  refine (mulf_apply _ _ _).trans ?_
  refine congr (congrArg _ ?_) ?_
  · refine (Cert.LibDot.matmul_zero_apply dot_S5000x128_S128x64_S5000x64_1_0_0_1_n_n_wf none
      (truncf .bf16 (shapeCast S5000x128 x0 shapeCasts_S5000x128_S5000x128) bitsLt_bf16_f32)
      (truncf .bf16 x1 bitsLt_bf16_f32) a b).trans ?_
    refine Finset.sum_congr rfl fun k _ => congrArg (· * _) ?_
    exact congrFun (shapeCast_self x0 shapeCasts_S5000x128_S5000x128) _
  · exact (broadcastTo_a1_ab_apply _ broadcasts_S5000x1_S5000x64 a b).trans
      (congrFun (shapeCast_self x2 shapeCasts_S5000x1_S5000x1) _)

/-- The ten grid points of region 1. -/
theorem points1 : cfg1.N = 10 := rfl

/-- The index maps, decided over the ten points: at point t the left matrix, the column and the output are at row
    block t (column block 0), and the right matrix is at its one block. -/
theorem index_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- The left matrix's block at point t is rows 5000 t ... 5000 t + 4999 of the left matrix. -/
theorem left_block1 (c : Dev nD) (t : Fin cfg1.N) (y : S5000x128.Idx) (i : S50000x128.Idx)
    (h0 : (i 0).val = t.val * 5000 + (y 0).val) (h1 : (i 1).val = (y 1).val) :
    (iblk1 V c 0 t : Vec Ideal S5000x128 .f32) y = (V c main_v30 : S50000x128.Idx → EReal) i := by
  obtain ⟨e0, e1, -⟩ := index_facts1 t
  unfold iblk1
  rw [View.read_apply]
  show V c main_v30 _ = V c main_v30 _
  refine congrArg _ (funext fun a => Fin.ext ?_)
  match a with
  | ⟨0, _⟩ => show win1_0.index t (0 : Fin 2) * 5000 + 1 * (y 0).val = (i 0).val; rw [e0, h0]; omega
  | ⟨1, _⟩ => show win1_0.index t (1 : Fin 2) * 128 + 1 * (y 1).val = (i 1).val; rw [e1, h1]; omega

/-- The right matrix's block at any point is the right matrix. -/
theorem right_block1 (c : Dev nD) (t : Fin cfg1.N) (y : S128x64.Idx) :
    (iblk1 V c 1 t : Vec Ideal S128x64 .f32) y = (V c main_arg4 : S128x64.Idx → EReal) y := by
  obtain ⟨-, -, e0, e1, -⟩ := index_facts1 t
  unfold iblk1
  rw [View.read_apply]
  show V c main_arg4 _ = V c main_arg4 _
  refine congrArg _ (funext fun a => Fin.ext ?_)
  match a with
  | ⟨0, _⟩ => show win1_1.index t (0 : Fin 2) * 128 + 1 * (y 0).val = (y 0).val; rw [e0]; omega
  | ⟨1, _⟩ => show win1_1.index t (1 : Fin 2) * 64 + 1 * (y 1).val = (y 1).val; rw [e1]; omega

/-- The column's block at point t is rows 5000 t ... 5000 t + 4999 of the column. -/
theorem column_block1 (c : Dev nD) (t : Fin cfg1.N) (y : S5000x1.Idx) (i : S50000x1.Idx)
    (h0 : (i 0).val = t.val * 5000 + (y 0).val) (h1 : (i 1).val = (y 1).val) :
    (iblk1 V c 2 t : Vec Ideal S5000x1 .f32) y = (V c main_v31 : S50000x1.Idx → EReal) i := by
  obtain ⟨-, -, -, -, e0, e1, -⟩ := index_facts1 t
  unfold iblk1
  rw [View.read_apply]
  show V c main_v31 _ = V c main_v31 _
  refine congrArg _ (funext fun a => Fin.ext ?_)
  match a with
  | ⟨0, _⟩ => show win1_2.index t (0 : Fin 2) * 5000 + 1 * (y 0).val = (i 0).val; rw [e0, h0]; omega
  | ⟨1, _⟩ => show win1_2.index t (1 : Fin 2) * 1 + 1 * (y 1).val = (i 1).val; rw [e1, h1]; omega

/-- The body's result at an index j of the output block is the scaled product at the array index i, once each block
    agrees with its array along row i 0 (left block, column block) and the right block is the right matrix. -/
theorem body1_at (x0 : Vec Ideal S5000x128 .f32) (x1 : Vec Ideal S128x64 .f32) (x2 : Vec Ideal S5000x1 .f32)
    (A : S50000x128.Idx → EReal) (B : S128x64.Idx → EReal) (d : S50000x1.Idx → EReal)
    (j : S5000x64.Idx) (i : S50000x64.Idx) (hq : (i 1).val = (j 1).val)
    (hA : ∀ k : Fin 128, x0 (ix2 (j 0) k) = A (ix2 (i 0) k))
    (hB : ∀ y : S128x64.Idx, x1 y = B y)
    (hd : x2 (ix2 (j 0) (0 : Fin 1)) = d (ix2 (i 0) (0 : Fin 1))) :
    k1_pay1 x0 x1 x2 j = G1 A B d i := by
  have hq' : (j 1 : Fin 64) = (i 1 : Fin 64) := Fin.ext hq.symm
  refine (congrArg (k1_pay1 x0 x1 x2) (eq_ix2 j)).trans ?_
  refine (body1_apply x0 x1 x2 (j 0) (j 1)).trans ?_
  unfold G1 scaledProduct1
  rw [hd]
  refine congrArg (· * _) (Finset.sum_congr rfl fun k _ => ?_)
  rw [hA k, hB, hq']

/-- What point t writes back is block t of the scaled product of the arrays as the region finds them. -/
theorem flushed1 (c : Dev nD) (t : Fin cfg1.N) :
    (dat1 (F := Ideal) V c).flushed 3 t
      = ((cfg1.win 3).blk t).view.read (Elt Ideal) (G1 (V c main_v30) (V c main_arg4) (V c main_v31)) := by
  show (cfg1.win 3).cut (grid1.coords t) ((dat1 V c).after 3 t) = _
  rw [after1_3]
  unfold out1_3
  rw [View.canon_unit_zero zero_offsets]
  simp only [View.ld_unit_zero (S := S5000x128) zero_offsets, View.ld_unit_zero (S := S128x64) zero_offsets,
    View.ld_unit_zero (S := S5000x1) zero_offsets]
  obtain ⟨-, -, -, -, -, -, e0, e1⟩ := index_facts1 t
  funext j
  show k1_pay1 (iblk1 V c 0 t) (iblk1 V c 1 t) (iblk1 V c 2 t) j
    = G1 (V c main_v30) (V c main_arg4) (V c main_v31) (((cfg1.win 3).blk t).view.emb j)
  have hr : ((((cfg1.win 3).blk t).view.emb j) 0).val = t.val * 5000 + (j 0).val := by
    show win1_3.index t (0 : Fin 2) * 5000 + 1 * (j 0).val = _
    rw [e0]; omega
  have hq : ((((cfg1.win 3).blk t).view.emb j) 1).val = (j 1).val := by
    show win1_3.index t (1 : Fin 2) * 64 + 1 * (j 1).val = _
    rw [e1]; omega
  exact body1_at (iblk1 V c 0 t) (iblk1 V c 1 t) (iblk1 V c 2 t) (V c main_v30) (V c main_arg4) (V c main_v31)
    j (((cfg1.win 3).blk t).view.emb j) hq
    (fun k => left_block1 V c t (ix2 (j 0) k) (ix2 ((((cfg1.win 3).blk t).view.emb j) 0) k) hr rfl)
    (fun y => right_block1 V c t y)
    (column_block1 V c t (ix2 (j 0) (0 : Fin 1)) (ix2 ((((cfg1.win 3).blk t).view.emb j) 0) (0 : Fin 1)) hr rfl)

/-- An index of the array is in point t's block iff each coordinate is in the block's range on its axis. -/
theorem mem_block1 (t : Fin cfg1.N) (i : S50000x64.Idx) :
    i ∈ ((cfg1.win 3).blk t).view.set ↔ ∀ a : Fin 2, win1_3.index t a * S5000x64.size a ≤ (i a).val
      ∧ (i a).val < win1_3.index t a * S5000x64.size a + S5000x64.size a := by
  show i ∈ ((View.whole main_v32).slice (win1_3.rect t)).set ↔ _
  rw [View.set_slice_whole, Rect.mem_set_unit]
  exact Iff.rfl

/-- Every row r of the array is in the block of point r / 5000: the ten row blocks fill the array. -/
theorem cover1 (i : S50000x64.Idx) :
    ∃ t : Fin cfg1.N, (cfg1.win 3).flush t = true ∧ i ∈ ((cfg1.win 3).blk t).view.set := by
  have hi0 : (i 0).val < 50000 := (i 0).isLt
  have hi1 : (i 1).val < 64 := (i 1).isLt
  have hN : cfg1.N = 10 := points1
  obtain ⟨t, ht⟩ : ∃ t : Fin cfg1.N, t.val = (i 0).val / 5000 := ⟨⟨(i 0).val / 5000, by omega⟩, rfl⟩
  obtain ⟨-, -, -, -, -, -, e0, e1⟩ := index_facts1 t
  refine ⟨t, flush1_3 t, ?_⟩
  rw [mem_block1]
  intro a
  match a with
  | ⟨0, _⟩ =>
    show win1_3.index t (0 : Fin 2) * 5000 ≤ (i 0).val ∧ (i 0).val < win1_3.index t (0 : Fin 2) * 5000 + 5000
    rw [e0]; omega
  | ⟨1, _⟩ =>
    show win1_3.index t (1 : Fin 2) * 64 ≤ (i 1).val ∧ (i 1).val < win1_3.index t (1 : Fin 2) * 64 + 64
    rw [e1]; omega

/-- The output array of region 1 after its ten points: the scaled product of the arrays the region finds. -/
theorem array1 (c : Dev nD) :
    (dat1 (F := Ideal) V c).arrAt 3 cfg1.N = G1 (V c main_v30) (V c main_arg4) (V c main_v31) :=
  (dat1 (F := Ideal) V c).arrAt_eq_of_cover 3 (G1 (V c main_v30) (V c main_arg4) (V c main_v31))
    (fun t _ => flushed1 V c t) cover1

/-- Entry (r, q) of region 1's output array, the three arrays the region finds named A, B, d. -/
theorem arr1 (c : Dev nD) (A : S50000x128.Idx → EReal) (B : S128x64.Idx → EReal) (d : S50000x1.Idx → EReal)
    (hA : V c main_v30 = A) (hB : V c main_arg4 = B) (hd : V c main_v31 = d) (r : Fin 50000) (q : Fin 64) :
    ((dat1 (F := Ideal) V c).arrAt 3 cfg1.N : S50000x64.Idx → EReal) (ix2 r q)
      = (∑ k : Fin 128, A (ix2 r k) * B (ix2 k q)) * d (ix2 r (0 : Fin 1)) := by
  subst hA hB hd
  rw [array1]
  rfl

end Cert.KernelIdeal.Blocks

end
-- ==== Proof.KernelValue.lean ====
/-
  The idealized kernel program's result, entry by entry, is the first arrangement of Spec.lean.

  The first region leaves hs (n, q) = (x W1) (n, q) * d n (Blocks.lean), the stretch after it turns hs into the first
  layer (KernelTailRead.lean), the rectifier gives the hidden layer, the second region leaves
  (hidden W2) (n, q) * d n, and the last stretch turns that into the second layer. The vector d and the position
  words are the same in both layers.
-/
import proofs.«104957_j37477884625100_2_alg».proof.Proof.KernelHost
import proofs.«104957_j37477884625100_2_alg».proof.Proof.KernelTailRead
import proofs.«104957_j37477884625100_2_alg».proof.Proof.Blocks

set_option maxRecDepth 16384

noncomputable section

namespace Cert.KernelIdeal.Result

open Cert.KernelIdeal Cert.KernelIdeal.Gen Cert.KernelIdeal.Tail Cert.KernelIdeal.Host Cert.Gcn
open Idealize.ShloMosaic Idealize.ShloMosaic.ValueIdx Idealize.ShloMosaic.TcCoe Idealize.SL.Sem
open scoped BigOperators

/-! ## Two facts over plain functions -/

/-- d depends only on which edges land where. -/
theorem dinv_congr {N M : Nat} (del del' : Fin M → Fin N → Prop) [∀ e n, Decidable (del e n)] [∀ e n, Decidable (del' e n)]
    (h : ∀ e n, del e n ↔ del' e n) (n : Fin N) : dinv del n = dinv del' n := by
  unfold dinv deg
  refine congrArg Ideal.rsqrt (congrArg (fun t : EReal => t + 1) (congrArg (fun t : EReal => 0 + t)
    (Finset.sum_congr rfl fun e _ => if_congr (h e n) rfl rfl)))

/-- What a stretch computes from hs = h * d is the first arrangement's layer. -/
theorem layerK_of_stretch {D : Nat} (ei : Fin 2 → Fin 500000 → BitVec 32) (dd : Fin 50000 → EReal)
    (h hs : Fin 50000 → Fin D → EReal) (b : Fin D → EReal) (v : Fin 50000 → EReal) (s d : Fin 500000 → BitVec 32)
    (hhs : ∀ n q, hs n q = h n q * dd n) (hv : ∀ n, v n = dd n) (hs' : ∀ e, s e = ei 0 e) (hd : ∀ e, d e = ei 1 e)
    (n : Fin 50000) (q : Fin D) :
    v n * ((0 + ∑ e : Fin 500000, if lands (d e) n then hs (pick (s e)) q else 0) + hs n q) + b q
      = layerK (srcRow ei) (del ei) dd h b n q := by
  unfold layerK srcRow
  rw [hv n, hhs n q]
  refine congrArg (fun t : EReal => t + b q) (congrArg (fun t : EReal => dd n * t)
    (congrArg (fun t : EReal => t + h n q * dd n) (congrArg (fun t : EReal => 0 + t)
      (Finset.sum_congr rfl fun e _ => ?_))))
  rw [hs' e, hhs]
  exact if_congr (by rw [hd e]; exact Iff.rfl) rfl rfl

/-! ## The arrays -/

variable (m : (ℓ : Loc nD τ sig) → Buf (Elt Ideal) ℓ) (ρ : Dev nD → PrngReg) (c : Dev nD)

/-- The six argument arrays at launch, as plain functions of coordinates. -/
def X : Fin 50000 → Fin 128 → EReal := fun n k => (show S50000x128.Idx → EReal from m ((c.tc : Thread nD τ).loc main_arg0)) (ix2 n k)
def E : Fin 2 → Fin 500000 → BitVec 32 := fun r e => (show IVec S2x500000 32 from m ((c.tc : Thread nD τ).loc main_arg1)) (ix2 r e)
def Wa : Fin 128 → Fin 128 → EReal := fun k q => (show S128x128.Idx → EReal from m ((c.tc : Thread nD τ).loc main_arg2)) (ix2 k q)
def Ba : Fin 128 → EReal := fun q => (show S128.Idx → EReal from m ((c.tc : Thread nD τ).loc main_arg3)) (ix1 q)
def Wb : Fin 128 → Fin 64 → EReal := fun k q => (show S128x64.Idx → EReal from m ((c.tc : Thread nD τ).loc main_arg4)) (ix2 k q)
def Bb : Fin 64 → EReal := fun q => (show S64.Idx → EReal from m ((c.tc : Thread nD τ).loc main_arg5)) (ix1 q)

/-- The vector d the program computes is d of this graph. -/
theorem dV_apply (n : Fin 50000) :
    dinvV (dstW (m ((c.tc : Thread nD τ).loc main_arg1))) (ix1 n) = dnode (E m c) n := by
  rw [dinvV_apply]
  unfold dnode
  exact dinv_congr _ _ (fun e n => by rw [dstW_apply]; exact Iff.rfl) n

/-- The first region's output: the product scaled row by row. -/
theorem hs1_apply (n : Fin 50000) (q : Fin 128) :
    (show S50000x128.Idx → EReal from W2 m ρ c (Proc.devRef .tc main_v12)) (ix2 n q)
      = mm (X m c) (Wa m c) n q * dnode (E m c) n := by
  show (show S50000x128.Idx → EReal from W2 m ρ c (Proc.devRef .tc main_v12)) (ix2 n q) = _
  rw [W2_v12]
  refine (Cert.KernelIdeal.Blocks.arr0 (V1 m ρ) c _ _ _ (W1_arg0 m ρ c) (W1_arg2 m ρ c) (W1_v11 m ρ c) n q).trans ?_
  rw [col_apply, dV_apply]
  rfl

/-- The hidden layer the second region reads: the rectifier of the first layer. -/
theorem hidden_apply (n : Fin 50000) (k : Fin 128) :
    (show S50000x128.Idx → EReal from W5 m ρ c (Proc.devRef .tc main_v30)) (ix2 n k)
      = hiddenK (X m c) (E m c) (Wa m c) (Ba m c) n k := by
  show (show S50000x128.Idx → EReal from W5 m ρ c (Proc.devRef .tc main_v30)) (ix2 n k) = _
  rw [W5_v30]
  show reluV _ (ix2 n k) = _
  rw [reluV_apply, tail1_apply, W2_v1, W2_v3, W2_v10, W2_arg3]
  unfold hiddenK
  refine congrArg relu ?_
  exact layerK_of_stretch (E m c) (dnode (E m c)) (mm (X m c) (Wa m c))
    (fun n q => (show S50000x128.Idx → EReal from W2 m ρ c (Proc.devRef .tc main_v12)) (ix2 n q)) (Ba m c)
    (fun n => dinvV (dstW (m ((c.tc : Thread nD τ).loc main_arg1))) (ix1 n)) (fun e => srcW (m ((c.tc : Thread nD τ).loc main_arg1)) (ix1 e)) (fun e => dstW (m ((c.tc : Thread nD τ).loc main_arg1)) (ix1 e))
    (hs1_apply m ρ c) (dV_apply m c) (srcW_apply _) (dstW_apply _) n k

/-- The column the second region is handed is d again. -/
theorem col2_apply (n : Fin 50000) :
    (show S50000x1.Idx → EReal from W5 m ρ c (Proc.devRef .tc main_v31)) (ix2 n (0 : Fin 1)) = dnode (E m c) n := by
  show (show S50000x1.Idx → EReal from W5 m ρ c (Proc.devRef .tc main_v31)) (ix2 n (0 : Fin 1)) = _
  rw [W5_v31]
  show col _ (ix2 n (0 : Fin 1)) = _
  rw [col_apply, W2_v10, dV_apply]

/-- The second region's output: the hidden layer's product with the second weights, scaled row by row. -/
theorem hs2_apply (n : Fin 50000) (q : Fin 64) :
    (show S50000x64.Idx → EReal from W6 m ρ c (Proc.devRef .tc main_v32)) (ix2 n q)
      = mm (hiddenK (X m c) (E m c) (Wa m c) (Ba m c)) (Wb m c) n q * dnode (E m c) n := by
  show (show S50000x64.Idx → EReal from W6 m ρ c (Proc.devRef .tc main_v32)) (ix2 n q) = _
  rw [W6_v32]
  refine (Cert.KernelIdeal.Blocks.arr1 (V5 m ρ) c _ _ _
    (show V5 m ρ c main_v30 = W5 m ρ c (Proc.devRef .tc main_v30) from rfl) ((W5_arg4 m ρ c).trans (W2_arg4 m ρ c))
    (show V5 m ρ c main_v31 = W5 m ρ c (Proc.devRef .tc main_v31) from rfl) n q).trans ?_
  unfold mm
  refine congrArg₂ (fun a b : EReal => a * b) (Finset.sum_congr rfl fun k _ => ?_) (col2_apply m ρ c n)
  show (show S50000x128.Idx → EReal from W5 m ρ c (Proc.devRef .tc main_v30)) (ix2 n k) * Wb m c k q
    = hiddenK (X m c) (E m c) (Wa m c) (Ba m c) n k * Wb m c k q
  rw [hidden_apply]

/-- The result, entry by entry: the first arrangement's output. -/
theorem result_apply (n : Fin 50000) (q : Fin 64) :
    (show S50000x64.Idx → EReal from W7 m ρ c (Proc.devRef .tc main_v49)) (ix2 n q)
      = outK (X m c) (E m c) (Wa m c) (Ba m c) (Wb m c) (Bb m c) n q := by
  show (show S50000x64.Idx → EReal from W7 m ρ c (Proc.devRef .tc main_v49)) (ix2 n q) = _
  rw [W7_v49]
  show tail2 _ _ _ _ _ (ix2 n q) = _
  rw [tail2_apply, W6_v1, W6_v3, W6_v10, W6_arg5]
  unfold outK
  exact layerK_of_stretch (E m c) (dnode (E m c)) (mm (hiddenK (X m c) (E m c) (Wa m c) (Ba m c)) (Wb m c))
    (fun n q => (show S50000x64.Idx → EReal from W6 m ρ c (Proc.devRef .tc main_v32)) (ix2 n q)) (Bb m c)
    (fun n => dinvV (dstW (m ((c.tc : Thread nD τ).loc main_arg1))) (ix1 n)) (fun e => srcW (m ((c.tc : Thread nD τ).loc main_arg1)) (ix1 e)) (fun e => dstW (m ((c.tc : Thread nD τ).loc main_arg1)) (ix1 e))
    (hs2_apply m ρ c) (dV_apply m c) (srcW_apply _) (dstW_apply _) n q

end Cert.KernelIdeal.Result

end
-- ==== Proof.RefLayer1.lean ====
/-
  The reference arrangement's first layer, read at an index.

  Every intermediate array of the reference program up to the hidden layer after the rectifier is read at an
  index (n), (e), (n, q) or (e, q) and identified with the corresponding expression of the specification:
  the two rows of position words, the wrapped words, the degree vector d, the two lookups of d through the
  source and destination words, the feature product x * w1, its rows looked up through the source words,
  the accumulation over the edges landing on a node, the self term, the bias and the rectifier.
-/
import proofs.«104957_j37477884625100_2_alg».proof.Proof.Gen.ReferenceIdeal.Read
import proofs.«104957_j37477884625100_2_alg».proof.Proof.Spec
import proofs.«104957_j37477884625100_2_alg».proof.Proof.LibIndexOps
import Idealize.ShloMosaic.Lib.IdealHost

noncomputable section

namespace Cert.RefRead

open Idealize.ShloMosaic Idealize.ShloMosaic.ValueIdx Cert.ReferenceIdeal Cert.ReferenceIdeal.Read Cert.Gcn
open scoped BigOperators

/-- The [2, M] array of position words as a function of the row (0 = source, 1 = destination) and the edge. -/
abbrev EI (a1 : IVec S2x500000 32) : Fin 2 → Fin 500000 → BitVec 32 := fun r e => a1 (ix2 r e)

/-! ## The position words -/

/-- Row 0 of the position array, as a vector: the source words. -/
theorem v1_eq (a1 : IVec S2x500000 32) (e : Fin 500000) :
    val_main_v1 (F := Ideal) a1 (ix1 e) = a1 (ix2 (0 : Fin 2) e) := by
  rw [val_main_v1_apply, val_main_v0_apply]
  congr 1
  funext a; refine Fin.ext ?_
  match a with
  | ⟨0, _⟩ => rfl
  | ⟨1, _⟩ => exact Nat.mod_eq_of_lt e.isLt

/-- Row 1 of the position array, as a vector: the destination words. -/
theorem v3_eq (a1 : IVec S2x500000 32) (e : Fin 500000) :
    val_main_v3 (F := Ideal) a1 (ix1 e) = a1 (ix2 (1 : Fin 2) e) := by
  rw [val_main_v3_apply, val_main_v2_apply]
  congr 1
  funext a; refine Fin.ext ?_
  match a with
  | ⟨0, _⟩ => rfl
  | ⟨1, _⟩ => exact Nat.mod_eq_of_lt e.isLt

/-- The index [e, 0] of a one-column array read back as the vector index [e]. -/
theorem col_ix (e : Fin 500000) :
    (fun a : Fin 1 => match a with
      | ⟨0, _⟩ => (⟨((ix2 e (0 : Fin 1) : S500000x1.Idx) 0).val, ((ix2 e (0 : Fin 1) : S500000x1.Idx) 0).isLt⟩ : Fin 500000))
      = (ix1 e : S500000.Idx) := by
  funext a
  match a with
  | ⟨0, _⟩ => rfl

/-- The source words, wrapped. -/
theorem v16_eq (a1 : IVec S2x500000 32) (e : Fin 500000) :
    val_main_v16 (F := Ideal) a1 (ix1 e) = wrap (a1 (ix2 (0 : Fin 2) e)) := by
  rw [val_main_v16_apply, val_main_v13_apply, val_main_v15_apply, val_main_v12_apply, val_main_v14_apply, v1_eq]
  rfl

theorem v17_eq (a1 : IVec S2x500000 32) (e : Fin 500000) :
    val_main_v17 (F := Ideal) a1 (ix2 e (0 : Fin 1)) = wrap (a1 (ix2 (0 : Fin 2) e)) := by
  rw [val_main_v17_apply]
  exact (congrArg (val_main_v16 (F := Ideal) a1) (col_ix e)).trans (v16_eq a1 e)

/-- The destination words, wrapped. -/
theorem v23_eq (a1 : IVec S2x500000 32) (e : Fin 500000) :
    val_main_v23 (F := Ideal) a1 (ix1 e) = wrap (a1 (ix2 (1 : Fin 2) e)) := by
  rw [val_main_v23_apply, val_main_v20_apply, val_main_v22_apply, val_main_v19_apply, val_main_v21_apply, v3_eq]
  rfl

theorem v24_eq (a1 : IVec S2x500000 32) (e : Fin 500000) :
    val_main_v24 (F := Ideal) a1 (ix2 e (0 : Fin 1)) = wrap (a1 (ix2 (1 : Fin 2) e)) := by
  rw [val_main_v24_apply]
  exact (congrArg (val_main_v23 (F := Ideal) a1) (col_ix e)).trans (v23_eq a1 e)

/-- The source words, wrapped a second time for the row lookup. -/
theorem v32_eq (a1 : IVec S2x500000 32) (e : Fin 500000) :
    val_main_v32 (F := Ideal) a1 (ix1 e) = wrap (a1 (ix2 (0 : Fin 2) e)) := by
  rw [val_main_v32_apply, val_main_v29_apply, val_main_v31_apply, val_main_v28_apply, val_main_v30_apply, v1_eq]
  rfl

theorem v33_eq (a1 : IVec S2x500000 32) (e : Fin 500000) :
    val_main_v33 (F := Ideal) a1 (ix2 e (0 : Fin 1)) = wrap (a1 (ix2 (0 : Fin 2) e)) := by
  rw [val_main_v33_apply]
  exact (congrArg (val_main_v32 (F := Ideal) a1) (col_ix e)).trans (v32_eq a1 e)

/-- The destination words as a one-column array, neither wrapped nor clamped: the accumulations' positions. -/
theorem v7_eq (a1 : IVec S2x500000 32) (e : Fin 500000) :
    val_main_v7 (F := Ideal) a1 (ix2 e (0 : Fin 1)) = a1 (ix2 (1 : Fin 2) e) := by
  rw [val_main_v7_apply]
  exact (congrArg (val_main_v3 (F := Ideal) a1) (col_ix e)).trans (v3_eq a1 e)

theorem v38_eq (a1 : IVec S2x500000 32) (e : Fin 500000) :
    val_main_v38 (F := Ideal) a1 (ix2 e (0 : Fin 1)) = a1 (ix2 (1 : Fin 2) e) := by
  rw [val_main_v38_apply]
  exact (congrArg (val_main_v3 (F := Ideal) a1) (col_ix e)).trans (v3_eq a1 e)

/-! ## The degree vector -/

/-- The number of edges landing on n, accumulated from zero. -/
theorem v8_eq (a1 : IVec S2x500000 32) (n : Fin 50000) :
    val_main_v8 (F := Ideal) a1 (ix1 n) = 0 + ∑ e : Fin 500000, if del (EI a1) e n then (1 : EReal) else 0 := by
  unfold val_main_v8
  have hrec : scatter_S50000_S500000x1_S500000_n_0_0_1
      = Cert.LibIndexOps.vecScatter 50000 500000 Facts₀.scatter_S50000_S500000x1_S500000_n_0_0_1_wf := rfl
  rw [hrec]
  refine (Cert.LibIndexOps.scatterAdd_vec_apply (N := 50000) (M := 500000) _
    (val_main_v6 (F := Ideal)) (val_main_v7 (F := Ideal) a1) (val_main_v5 (F := Ideal)) n).trans ?_
  refine congrArg₂ (fun a b : EReal => a + b) ?_ ?_
  · rw [val_main_v6_apply, val_main_cst_0_apply]
    exact Ideal.ofBits_zero_f32
  · refine Finset.sum_congr rfl fun e _ => if_congr ?_ ?_ rfl
    · rw [v7_eq]
      exact Iff.rfl
    · rw [val_main_v5_apply, val_main_cst_apply]
      exact Ideal.ofBits_one_f32

/-- deg n. -/
theorem v10_eq (a1 : IVec S2x500000 32) (n : Fin 50000) :
    val_main_v10 (F := Ideal) a1 (ix1 n) = deg (del (EI a1)) n := by
  rw [val_main_v10_apply, v8_eq, val_main_v9_apply, val_main_cst_1_apply, Ideal.ofBits_def, Ideal.ofBits_one_f32]
  rfl

/-- d n = 1/sqrt(deg n). -/
theorem v11_eq (a1 : IVec S2x500000 32) (n : Fin 50000) :
    val_main_v11 (F := Ideal) a1 (ix1 n) = dnode (EI a1) n := by
  rw [val_main_v11_apply, v10_eq, Ideal.hostUnary_rsqrt_def]
  unfold dnode dinv
  rfl

/-- d looked up through the source word. -/
theorem v18_eq (a1 : IVec S2x500000 32) (e : Fin 500000) :
    val_main_v18 (F := Ideal) a1 (ix1 e) = dnode (EI a1) (srcRow (EI a1) e) := by
  unfold val_main_v18
  have hrec : gather_S50000_S500000x1_S500000_n_0_n_n_0_1_1
      = Cert.LibIndexOps.vecGather 50000 500000 Facts₀.gather_S50000_S500000x1_S500000_n_0_n_n_0_1_1_wf := rfl
  rw [hrec]
  refine (Cert.LibIndexOps.gather_vec_apply (N := 50000) (M := 500000) (by norm_num) _
    (val_main_v11 (F := Ideal) a1) (val_main_v17 (F := Ideal) a1) e).trans ?_
  have hrow : (⟨min (val_main_v17 (F := Ideal) a1 (ix2 e (0 : Fin 1))).toInt.toNat (50000 - 1), by omega⟩ : Fin 50000)
      = srcRow (EI a1) e := Fin.ext (by
    show min (val_main_v17 (F := Ideal) a1 (ix2 e (0 : Fin 1))).toInt.toNat (50000 - 1) = _
    rw [v17_eq]
    rfl)
  rw [hrow]
  exact v11_eq a1 (srcRow (EI a1) e)

/-- d looked up through the destination word. -/
theorem v25_eq (a1 : IVec S2x500000 32) (e : Fin 500000) :
    val_main_v25 (F := Ideal) a1 (ix1 e) = dnode (EI a1) (dstRow (EI a1) e) := by
  unfold val_main_v25
  have hrec : gather_S50000_S500000x1_S500000_n_0_n_n_0_1_1
      = Cert.LibIndexOps.vecGather 50000 500000 Facts₀.gather_S50000_S500000x1_S500000_n_0_n_n_0_1_1_wf := rfl
  rw [hrec]
  refine (Cert.LibIndexOps.gather_vec_apply (N := 50000) (M := 500000) (by norm_num) _
    (val_main_v11 (F := Ideal) a1) (val_main_v24 (F := Ideal) a1) e).trans ?_
  have hrow : (⟨min (val_main_v24 (F := Ideal) a1 (ix2 e (0 : Fin 1))).toInt.toNat (50000 - 1), by omega⟩ : Fin 50000)
      = dstRow (EI a1) e := Fin.ext (by
    show min (val_main_v24 (F := Ideal) a1 (ix2 e (0 : Fin 1))).toInt.toNat (50000 - 1) = _
    rw [v24_eq]
    rfl)
  rw [hrow]
  exact v11_eq a1 (dstRow (EI a1) e)

/-! ## The feature product and its rows looked up through the source words -/

/-- x * w1 at (n, q). -/
theorem v4_eq (a0 : FVec Ideal S50000x128 .f32) (a2 : FVec Ideal S128x128 .f32) (n : Fin 50000) (q : Fin 128) :
    val_main_v4 (F := Ideal) a0 a2 (ix2 n q) = mm (fun n k => a0 (ix2 n k)) (fun k q => a2 (ix2 k q)) n q := by
  rw [val_main_v4_apply]
  unfold mm
  refine Finset.sum_congr rfl fun k _ => ?_
  have hl : lidx_main_v4 (ix2 n q) k = ix2 n k := by
    funext a; refine Fin.ext ?_
    match a with
    | ⟨0, _⟩ => rfl
    | ⟨1, _⟩ => rfl
  have hr : ridx_main_v4 (ix2 n q) k = ix2 k q := by
    funext a; refine Fin.ext ?_
    match a with
    | ⟨0, _⟩ => rfl
    | ⟨1, _⟩ => rfl
  rw [hl, hr]

/-- Row "source word of e" of x * w1, at column q. -/
theorem v34_eq (a0 : FVec Ideal S50000x128 .f32) (a1 : IVec S2x500000 32) (a2 : FVec Ideal S128x128 .f32)
    (e : Fin 500000) (q : Fin 128) :
    val_main_v34 (F := Ideal) a0 a1 a2 (ix2 e q)
      = mm (fun n k => a0 (ix2 n k)) (fun k q => a2 (ix2 k q)) (srcRow (EI a1) e) q := by
  unfold val_main_v34
  have hrec : gather_S50000x128_S500000x1_S500000x128_1_0_n_n_0_1_1128
      = Cert.LibIndexOps.rowsGather 50000 500000 128 Facts₀.gather_S50000x128_S500000x1_S500000x128_1_0_n_n_0_1_1128_wf := rfl
  rw [hrec]
  refine (Cert.LibIndexOps.gather_rows_apply (N := 50000) (M := 500000) (D := 128) (by norm_num) _
    (val_main_v4 (F := Ideal) a0 a2) (val_main_v33 (F := Ideal) a1) e q).trans ?_
  have hrow : (⟨min (val_main_v33 (F := Ideal) a1 (ix2 e (0 : Fin 1))).toInt.toNat (50000 - 1), by omega⟩ : Fin 50000)
      = srcRow (EI a1) e := Fin.ext (by
    show min (val_main_v33 (F := Ideal) a1 (ix2 e (0 : Fin 1))).toInt.toNat (50000 - 1) = _
    rw [v33_eq]
    rfl)
  rw [hrow]
  exact v4_eq a0 a2 (srcRow (EI a1) e) q

/-! ## The edge coefficients and the accumulation -/

/-- The coefficient of edge e: d at its source row times d at its destination row. -/
theorem v26_eq (a1 : IVec S2x500000 32) (e : Fin 500000) :
    val_main_v26 (F := Ideal) a1 (ix1 e) = dnode (EI a1) (srcRow (EI a1) e) * dnode (EI a1) (dstRow (EI a1) e) := by
  rw [val_main_v26_apply, v18_eq, v25_eq]
  rfl

theorem v27_eq (a1 : IVec S2x500000 32) (e : Fin 500000) :
    val_main_v27 (F := Ideal) a1 (ix2 e (0 : Fin 1))
      = dnode (EI a1) (srcRow (EI a1) e) * dnode (EI a1) (dstRow (EI a1) e) := by
  rw [val_main_v27_apply]
  exact (congrArg (val_main_v26 (F := Ideal) a1) (col_ix e)).trans (v26_eq a1 e)

theorem v35_eq (a1 : IVec S2x500000 32) (e : Fin 500000) (q : Fin 128) :
    val_main_v35 (F := Ideal) a1 (ix2 e q)
      = dnode (EI a1) (srcRow (EI a1) e) * dnode (EI a1) (dstRow (EI a1) e) := by
  rw [val_main_v35_apply]
  have h : idx_main_v35 (ix2 e q) = ix2 e (0 : Fin 1) := by
    funext a
    match a with
    | ⟨0, _⟩ => rfl
    | ⟨1, _⟩ => rfl
  rw [h]
  exact v27_eq a1 e

/-- The update of edge e at column q. -/
theorem v36_eq (a0 : FVec Ideal S50000x128 .f32) (a1 : IVec S2x500000 32) (a2 : FVec Ideal S128x128 .f32)
    (e : Fin 500000) (q : Fin 128) :
    val_main_v36 (F := Ideal) a0 a1 a2 (ix2 e q)
      = (dnode (EI a1) (srcRow (EI a1) e) * dnode (EI a1) (dstRow (EI a1) e))
        * mm (fun n k => a0 (ix2 n k)) (fun k q => a2 (ix2 k q)) (srcRow (EI a1) e) q := by
  rw [val_main_v36_apply, v35_eq, v34_eq]
  rfl

/-- The updates of the edges landing on n, accumulated from zero. -/
theorem v39_eq (a0 : FVec Ideal S50000x128 .f32) (a1 : IVec S2x500000 32) (a2 : FVec Ideal S128x128 .f32)
    (n : Fin 50000) (q : Fin 128) :
    val_main_v39 (F := Ideal) a0 a1 a2 (ix2 n q)
      = 0 + ∑ e : Fin 500000, if del (EI a1) e n then
          (dnode (EI a1) (srcRow (EI a1) e) * dnode (EI a1) (dstRow (EI a1) e))
            * mm (fun n k => a0 (ix2 n k)) (fun k q => a2 (ix2 k q)) (srcRow (EI a1) e) q else 0 := by
  unfold val_main_v39
  have hrec : scatter_S50000x128_S500000x1_S500000x128_1_0_0_1
      = Cert.LibIndexOps.rowsScatter 50000 500000 128 Facts₀.scatter_S50000x128_S500000x1_S500000x128_1_0_0_1_wf := rfl
  rw [hrec]
  refine (Cert.LibIndexOps.scatterAdd_rows_apply (N := 50000) (M := 500000) (D := 128) _
    (val_main_v37 (F := Ideal)) (val_main_v38 (F := Ideal) a1) (val_main_v36 (F := Ideal) a0 a1 a2) n q).trans ?_
  refine congrArg₂ (fun a b : EReal => a + b) ?_ ?_
  · rw [val_main_v37_apply, val_main_cst_7_apply]
    exact Ideal.ofBits_zero_f32
  · refine Finset.sum_congr rfl fun e _ => if_congr ?_ ?_ rfl
    · rw [v38_eq]
      exact Iff.rfl
    · exact v36_eq a0 a1 a2 e q

/-! ## The self term, the bias and the rectifier -/

/-- The coefficient of node n itself: d n * d n. -/
theorem v40_eq (a1 : IVec S2x500000 32) (n : Fin 50000) :
    val_main_v40 (F := Ideal) a1 (ix1 n) = dnode (EI a1) n * dnode (EI a1) n := by
  rw [val_main_v40_apply, v11_eq]
  rfl

theorem v42_eq (a1 : IVec S2x500000 32) (n : Fin 50000) (q : Fin 128) :
    val_main_v42 (F := Ideal) a1 (ix2 n q) = dnode (EI a1) n * dnode (EI a1) n := by
  rw [val_main_v42_apply, val_main_v41_apply]
  have h : idx_main_v41 (idx_main_v42 (ix2 n q)) = ix1 n := by
    funext a
    match a with
    | ⟨0, _⟩ => rfl
  rw [h]
  exact v40_eq a1 n

/-- The self term at (n, q). -/
theorem v43_eq (a0 : FVec Ideal S50000x128 .f32) (a1 : IVec S2x500000 32) (a2 : FVec Ideal S128x128 .f32)
    (n : Fin 50000) (q : Fin 128) :
    val_main_v43 (F := Ideal) a0 a1 a2 (ix2 n q)
      = (dnode (EI a1) n * dnode (EI a1) n) * mm (fun n k => a0 (ix2 n k)) (fun k q => a2 (ix2 k q)) n q := by
  rw [val_main_v43_apply, v42_eq, v4_eq]
  rfl

/-- The bias, broadcast along the rows. -/
theorem v46_eq (a3 : FVec Ideal S128 .f32) (n : Fin 50000) (q : Fin 128) :
    val_main_v46 (F := Ideal) a3 (ix2 n q) = a3 (ix1 q) := by
  rw [val_main_v46_apply, val_main_v45_apply]
  congr 1
  funext a
  match a with
  | ⟨0, _⟩ => rfl

/-- The first layer before the rectifier. -/
theorem v47_eq (a0 : FVec Ideal S50000x128 .f32) (a1 : IVec S2x500000 32) (a2 : FVec Ideal S128x128 .f32)
    (a3 : FVec Ideal S128 .f32) (n : Fin 50000) (k : Fin 128) :
    val_main_v47 (F := Ideal) a0 a1 a2 a3 (ix2 n k)
      = layerR (srcRow (EI a1)) (dstRow (EI a1)) (del (EI a1)) (dnode (EI a1))
          (mm (fun n k => a0 (ix2 n k)) (fun k q => a2 (ix2 k q))) (fun q => a3 (ix1 q)) n k := by
  rw [val_main_v47_apply, val_main_v44_apply, v39_eq, v43_eq, v46_eq]
  unfold layerR
  rfl

/-- The hidden layer after the rectifier. -/
theorem v48_eq (a0 : FVec Ideal S50000x128 .f32) (a1 : IVec S2x500000 32) (a2 : FVec Ideal S128x128 .f32)
    (a3 : FVec Ideal S128 .f32) (n : Fin 50000) (k : Fin 128) :
    val_main_v48 (F := Ideal) a0 a1 a2 a3 (ix2 n k)
      = hiddenR (fun n k => a0 (ix2 n k)) (EI a1) (fun k q => a2 (ix2 k q)) (fun q => a3 (ix1 q)) n k := by
  rw [val_main_v48_apply, v47_eq, val_main_call0_v0_apply, val_main_call0_cst_apply, Ideal.ofBits_def,
    Ideal.ofBits_zero_f32, Ideal.maximumf_def]
  unfold hiddenR relu
  rfl

end Cert.RefRead

end
-- ==== Proof.RefLayer2.lean ====
/-
  The second layer of the second arrangement, read at one entry.

  The second layer recomputes everything it needs about the graph: the degree of every node (an accumulation of ones
  over the destination words, plus one), its inverse square root d, the two lookups of d through the wrapped source
  and destination words, and their product, the coefficient of an edge. The hidden features (kept as an unspecified
  matrix here) are multiplied by the second weight matrix; each edge looks up the row of that product at its source,
  scales it by its coefficient, and the scaled rows are accumulated at the destination words. The node's own row,
  scaled by d n * d n, and the bias are added last. Every product and sum below is in the order the operations
  perform it, which is the order the target function 'layerR' is written in.
-/
import proofs.«104957_j37477884625100_2_alg».proof.Proof.Gen.ReferenceIdeal.Read
import proofs.«104957_j37477884625100_2_alg».proof.Proof.Spec
import proofs.«104957_j37477884625100_2_alg».proof.Proof.LibIndexOps
import Idealize.ShloMosaic.Lib.IdealHost

noncomputable section

namespace Cert.RefRead2

open Idealize.ShloMosaic Idealize.ShloMosaic.ValueIdx Cert.ReferenceIdeal Cert.ReferenceIdeal.Read Cert.Gcn
open scoped BigOperators

/-- The edge list as two rows of position words: row 0 the sources, row 1 the destinations. -/
abbrev EI2 (a1 : IVec S2x500000 32) : Fin 2 → Fin 500000 → BitVec 32 := fun r e => a1 (ix2 r e)

/-! ## The position words -/

/-- The source words: row 0 of the edge list, flattened. -/
theorem v1_at (a1 : IVec S2x500000 32) (e : Fin 500000) :
    val_main_v1 (F := Ideal) a1 (ix1 e) = a1 (ix2 (0 : Fin 2) e) := by
  rw [val_main_v1_apply, val_main_v0_apply]
  congr 1
  funext a
  refine Fin.ext ?_
  match a with
  | ⟨0, _⟩ => rfl
  | ⟨1, _⟩ => exact Nat.mod_eq_of_lt e.isLt

/-- The destination words: row 1 of the edge list, flattened. -/
theorem v3_at (a1 : IVec S2x500000 32) (e : Fin 500000) :
    val_main_v3 (F := Ideal) a1 (ix1 e) = a1 (ix2 (1 : Fin 2) e) := by
  rw [val_main_v3_apply, val_main_v2_apply]
  congr 1
  funext a
  refine Fin.ext ?_
  match a with
  | ⟨0, _⟩ => rfl
  | ⟨1, _⟩ => exact Nat.mod_eq_of_lt e.isLt

/-- The wrapped source words feeding the lookup of d at the source. -/
theorem v61_at (a1 : IVec S2x500000 32) (e : Fin 500000) :
    val_main_v61 (F := Ideal) a1 (ix1 e) = wrap (a1 (ix2 (0 : Fin 2) e)) := by
  rw [val_main_v61_apply, val_main_v58_apply, val_main_v60_apply, val_main_v57_apply, val_main_v59_apply,
    val_main_c_11_apply, val_main_c_12_apply, v1_at]
  rfl

/-- The wrapped destination words feeding the lookup of d at the destination. -/
theorem v68_at (a1 : IVec S2x500000 32) (e : Fin 500000) :
    val_main_v68 (F := Ideal) a1 (ix1 e) = wrap (a1 (ix2 (1 : Fin 2) e)) := by
  rw [val_main_v68_apply, val_main_v65_apply, val_main_v67_apply, val_main_v64_apply, val_main_v66_apply,
    val_main_c_13_apply, val_main_c_14_apply, v3_at]
  rfl

/-- The wrapped source words feeding the lookup of the feature rows. -/
theorem v77_at (a1 : IVec S2x500000 32) (e : Fin 500000) :
    val_main_v77 (F := Ideal) a1 (ix1 e) = wrap (a1 (ix2 (0 : Fin 2) e)) := by
  rw [val_main_v77_apply, val_main_v74_apply, val_main_v76_apply, val_main_v73_apply, val_main_v75_apply,
    val_main_c_15_apply, val_main_c_16_apply, v1_at]
  rfl

/-- The same words as a column [M, 1], read at (e, 0). -/
theorem v62_at (a1 : IVec S2x500000 32) (e : Fin 500000) :
    val_main_v62 (F := Ideal) a1 (ix2 e (0 : Fin 1)) = wrap (a1 (ix2 (0 : Fin 2) e)) := by
  rw [val_main_v62_apply, ← v61_at]
  congr 1
  funext a
  match a with
  | ⟨0, _⟩ => rfl

theorem v69_at (a1 : IVec S2x500000 32) (e : Fin 500000) :
    val_main_v69 (F := Ideal) a1 (ix2 e (0 : Fin 1)) = wrap (a1 (ix2 (1 : Fin 2) e)) := by
  rw [val_main_v69_apply, ← v68_at]
  congr 1
  funext a
  match a with
  | ⟨0, _⟩ => rfl

theorem v78_at (a1 : IVec S2x500000 32) (e : Fin 500000) :
    val_main_v78 (F := Ideal) a1 (ix2 e (0 : Fin 1)) = wrap (a1 (ix2 (0 : Fin 2) e)) := by
  rw [val_main_v78_apply, ← v77_at]
  congr 1
  funext a
  match a with
  | ⟨0, _⟩ => rfl

/-- The unwrapped destination words as a column, feeding the accumulation of ones. -/
theorem v52_at (a1 : IVec S2x500000 32) (e : Fin 500000) :
    val_main_v52 (F := Ideal) a1 (ix2 e (0 : Fin 1)) = a1 (ix2 (1 : Fin 2) e) := by
  rw [val_main_v52_apply]
  refine Eq.trans ?_ (v3_at a1 e)
  congr 1
  funext a
  match a with
  | ⟨0, _⟩ => rfl

/-- The unwrapped destination words as a column, feeding the accumulation of the scaled rows. -/
theorem v83_at (a1 : IVec S2x500000 32) (e : Fin 500000) :
    val_main_v83 (F := Ideal) a1 (ix2 e (0 : Fin 1)) = a1 (ix2 (1 : Fin 2) e) := by
  rw [val_main_v83_apply]
  refine Eq.trans ?_ (v3_at a1 e)
  congr 1
  funext a
  match a with
  | ⟨0, _⟩ => rfl

/-! ## The degree and its inverse square root -/

/-- The accumulation of ones: from zero, one for every edge landing on n. -/
theorem v53_at (a1 : IVec S2x500000 32) (n : Fin 50000) :
    val_main_v53 (F := Ideal) a1 (ix1 n)
      = 0 + ∑ e : Fin 500000, if del (EI2 a1) e n then (1 : EReal) else 0 := by
  unfold val_main_v53
  have hrec : scatter_S50000_S500000x1_S500000_n_0_0_1
      = Cert.LibIndexOps.vecScatter 50000 500000 scatter_S50000_S500000x1_S500000_n_0_0_1.wf := rfl
  rw [hrec]
  refine (Cert.LibIndexOps.scatterAdd_vec_apply (N := 50000) (M := 500000) _
    (val_main_v51 (F := Ideal)) (val_main_v52 (F := Ideal) a1) (val_main_v50 (F := Ideal)) n).trans ?_
  have h0 : val_main_v51 (F := Ideal) (ix1 n) = 0 := by
    rw [val_main_v51_apply, val_main_cst_9_apply]; exact Ideal.ofBits_zero_f32
  rw [h0]
  refine congrArg (fun s => (0 : EReal) + s) (Finset.sum_congr rfl fun e _ => ?_)
  have h1 : val_main_v50 (F := Ideal) (ix1 e) = 1 := by
    rw [val_main_v50_apply, val_main_cst_8_apply]; exact Ideal.ofBits_one_f32
  rw [h1, v52_at]
  exact if_congr Iff.rfl rfl rfl

/-- d n: the inverse square root of the degree. -/
theorem v56_at (a1 : IVec S2x500000 32) (n : Fin 50000) :
    val_main_v56 (F := Ideal) a1 (ix1 n) = dnode (EI2 a1) n := by
  have h1 : val_main_v54 (F := Ideal) (ix1 n) = 1 := by
    rw [val_main_v54_apply, val_main_cst_10_apply]; exact Ideal.ofBits_one_f32
  rw [val_main_v56_apply, val_main_v55_apply, v53_at, h1]
  unfold dnode dinv deg
  generalize (∑ e : Fin 500000, if del (EI2 a1) e n then (1 : EReal) else 0) = s
  rfl

/-! ## The lookups of d through the wrapped words, and the coefficient of an edge -/

/-- d at the row looked up through edge e's source word. -/
theorem v63_at (a1 : IVec S2x500000 32) (e : Fin 500000) :
    val_main_v63 (F := Ideal) a1 (ix1 e) = dnode (EI2 a1) (srcRow (EI2 a1) e) := by
  unfold val_main_v63
  have hrec : gather_S50000_S500000x1_S500000_n_0_n_n_0_1_1
      = Cert.LibIndexOps.vecGather 50000 500000 gather_S50000_S500000x1_S500000_n_0_n_n_0_1_1.wf := rfl
  rw [hrec]
  refine (Cert.LibIndexOps.gather_vec_apply (N := 50000) (M := 500000) (by norm_num) _
    (val_main_v56 (F := Ideal) a1) (val_main_v62 (F := Ideal) a1) e).trans ?_
  rw [v56_at]
  refine congrArg (dnode (EI2 a1)) (Fin.ext ?_)
  show min (val_main_v62 (F := Ideal) a1 (ix2 e (0 : Fin 1))).toInt.toNat (50000 - 1)
    = min (wrap (a1 (ix2 (0 : Fin 2) e))).toInt.toNat (50000 - 1)
  rw [v62_at]

/-- d at the row looked up through edge e's destination word. -/
theorem v70_at (a1 : IVec S2x500000 32) (e : Fin 500000) :
    val_main_v70 (F := Ideal) a1 (ix1 e) = dnode (EI2 a1) (dstRow (EI2 a1) e) := by
  unfold val_main_v70
  have hrec : gather_S50000_S500000x1_S500000_n_0_n_n_0_1_1
      = Cert.LibIndexOps.vecGather 50000 500000 gather_S50000_S500000x1_S500000_n_0_n_n_0_1_1.wf := rfl
  rw [hrec]
  refine (Cert.LibIndexOps.gather_vec_apply (N := 50000) (M := 500000) (by norm_num) _
    (val_main_v56 (F := Ideal) a1) (val_main_v69 (F := Ideal) a1) e).trans ?_
  rw [v56_at]
  refine congrArg (dnode (EI2 a1)) (Fin.ext ?_)
  show min (val_main_v69 (F := Ideal) a1 (ix2 e (0 : Fin 1))).toInt.toNat (50000 - 1)
    = min (wrap (a1 (ix2 (1 : Fin 2) e))).toInt.toNat (50000 - 1)
  rw [v69_at]

/-- The coefficient of edge e: d at its source row times d at its destination row. -/
theorem v71_at (a1 : IVec S2x500000 32) (e : Fin 500000) :
    val_main_v71 (F := Ideal) a1 (ix1 e)
      = dnode (EI2 a1) (srcRow (EI2 a1) e) * dnode (EI2 a1) (dstRow (EI2 a1) e) := by
  rw [val_main_v71_apply, v63_at, v70_at]
  rfl

/-- The coefficient spread over the 64 columns of the edge's row. -/
theorem v80_at (a1 : IVec S2x500000 32) (e : Fin 500000) (q : Fin 64) :
    val_main_v80 (F := Ideal) a1 (ix2 e q)
      = dnode (EI2 a1) (srcRow (EI2 a1) e) * dnode (EI2 a1) (dstRow (EI2 a1) e) := by
  rw [val_main_v80_apply, val_main_v72_apply, ← v71_at]
  refine congrArg (val_main_v71 (F := Ideal) a1) ?_
  funext a
  match a with
  | ⟨0, _⟩ => rfl

/-! ## The product with the second weight matrix, the rows looked up, scaled and accumulated -/

/-- The hidden features times the second weight matrix, entry (n, q). -/
theorem v49_at (a0 : FVec Ideal S50000x128 .f32) (a1 : IVec S2x500000 32) (a2 : FVec Ideal S128x128 .f32)
    (a3 : FVec Ideal S128 .f32) (a4 : FVec Ideal S128x64 .f32) (n : Fin 50000) (q : Fin 64) :
    val_main_v49 (F := Ideal) a0 a1 a2 a3 a4 (ix2 n q)
      = mm (fun n k => val_main_v48 (F := Ideal) a0 a1 a2 a3 (ix2 n k)) (fun k q => a4 (ix2 k q)) n q := by
  rw [val_main_v49_apply]
  unfold mm
  refine Finset.sum_congr rfl fun k _ => ?_
  have el : lidx_main_v49 (ix2 n q) k = ix2 n k := by
    funext a
    match a with
    | ⟨0, _⟩ => rfl
    | ⟨1, _⟩ => rfl
  have er : ridx_main_v49 (ix2 n q) k = ix2 k q := by
    funext a
    match a with
    | ⟨0, _⟩ => rfl
    | ⟨1, _⟩ => rfl
  rw [el, er]

/-- Edge e's row: the row of the product at the row looked up through its source word. -/
theorem v79_at (a0 : FVec Ideal S50000x128 .f32) (a1 : IVec S2x500000 32) (a2 : FVec Ideal S128x128 .f32)
    (a3 : FVec Ideal S128 .f32) (a4 : FVec Ideal S128x64 .f32) (e : Fin 500000) (q : Fin 64) :
    val_main_v79 (F := Ideal) a0 a1 a2 a3 a4 (ix2 e q)
      = val_main_v49 (F := Ideal) a0 a1 a2 a3 a4 (ix2 (srcRow (EI2 a1) e) q) := by
  unfold val_main_v79
  generalize val_main_v49 (F := Ideal) a0 a1 a2 a3 a4 = P
  have hrec : gather_S50000x64_S500000x1_S500000x64_1_0_n_n_0_1_164
      = Cert.LibIndexOps.rowsGather 50000 500000 64 gather_S50000x64_S500000x1_S500000x64_1_0_n_n_0_1_164.wf := rfl
  rw [hrec]
  refine (Cert.LibIndexOps.gather_rows_apply (N := 50000) (M := 500000) (D := 64) (by norm_num) _
    P (val_main_v78 (F := Ideal) a1) e q).trans ?_
  refine congrArg (fun r : Fin 50000 => P (ix2 r q)) (Fin.ext ?_)
  show min (val_main_v78 (F := Ideal) a1 (ix2 e (0 : Fin 1))).toInt.toNat (50000 - 1)
    = min (wrap (a1 (ix2 (0 : Fin 2) e))).toInt.toNat (50000 - 1)
  rw [v78_at]

/-- Edge e's update: its coefficient times its row. -/
theorem v81_at (a0 : FVec Ideal S50000x128 .f32) (a1 : IVec S2x500000 32) (a2 : FVec Ideal S128x128 .f32)
    (a3 : FVec Ideal S128 .f32) (a4 : FVec Ideal S128x64 .f32) (e : Fin 500000) (q : Fin 64) :
    val_main_v81 (F := Ideal) a0 a1 a2 a3 a4 (ix2 e q)
      = (dnode (EI2 a1) (srcRow (EI2 a1) e) * dnode (EI2 a1) (dstRow (EI2 a1) e))
        * val_main_v49 (F := Ideal) a0 a1 a2 a3 a4 (ix2 (srcRow (EI2 a1) e) q) := by
  rw [val_main_v81_apply, v80_at, v79_at]
  rfl

/-- The accumulation of the updates: from zero, the update of every edge landing on n. -/
theorem v84_at (a0 : FVec Ideal S50000x128 .f32) (a1 : IVec S2x500000 32) (a2 : FVec Ideal S128x128 .f32)
    (a3 : FVec Ideal S128 .f32) (a4 : FVec Ideal S128x64 .f32) (n : Fin 50000) (q : Fin 64) :
    val_main_v84 (F := Ideal) a0 a1 a2 a3 a4 (ix2 n q)
      = 0 + ∑ e : Fin 500000, if del (EI2 a1) e n then
          (dnode (EI2 a1) (srcRow (EI2 a1) e) * dnode (EI2 a1) (dstRow (EI2 a1) e))
            * val_main_v49 (F := Ideal) a0 a1 a2 a3 a4 (ix2 (srcRow (EI2 a1) e) q) else 0 := by
  unfold val_main_v84
  have hrec : scatter_S50000x64_S500000x1_S500000x64_1_0_0_1
      = Cert.LibIndexOps.rowsScatter 50000 500000 64 scatter_S50000x64_S500000x1_S500000x64_1_0_0_1.wf := rfl
  rw [hrec]
  refine (Cert.LibIndexOps.scatterAdd_rows_apply (N := 50000) (M := 500000) (D := 64) _
    (val_main_v82 (F := Ideal)) (val_main_v83 (F := Ideal) a1) (val_main_v81 (F := Ideal) a0 a1 a2 a3 a4) n q).trans ?_
  have h0 : val_main_v82 (F := Ideal) (ix2 n q) = 0 := by
    rw [val_main_v82_apply, val_main_cst_17_apply]; exact Ideal.ofBits_zero_f32
  rw [h0]
  refine congrArg (fun s => (0 : EReal) + s) (Finset.sum_congr rfl fun e _ => ?_)
  rw [v83_at, v81_at]
  exact if_congr Iff.rfl rfl rfl

/-- The node's own coefficient d n * d n, spread over the 64 columns. -/
theorem v87_at (a1 : IVec S2x500000 32) (n : Fin 50000) (q : Fin 64) :
    val_main_v87 (F := Ideal) a1 (ix2 n q) = dnode (EI2 a1) n * dnode (EI2 a1) n := by
  have h85 : val_main_v85 (F := Ideal) a1 (ix1 n) = dnode (EI2 a1) n * dnode (EI2 a1) n := by
    rw [val_main_v85_apply, v56_at]; rfl
  rw [val_main_v87_apply, val_main_v86_apply, ← h85]
  refine congrArg (val_main_v85 (F := Ideal) a1) ?_
  funext a
  match a with
  | ⟨0, _⟩ => rfl

/-- The bias, spread over the rows. -/
theorem v91_at (a5 : FVec Ideal S64 .f32) (n : Fin 50000) (q : Fin 64) :
    val_main_v91 (F := Ideal) a5 (ix2 n q) = a5 (ix1 q) := by
  rw [val_main_v91_apply, val_main_v90_apply]
  congr 1
  funext a
  match a with
  | ⟨0, _⟩ => rfl

/-! ## The second layer -/

/-- The second layer's result at (n, q) is the second arrangement's layer applied to the hidden features times the
    second weight matrix, with the second bias. -/
theorem v92_eq (a0 : FVec Ideal S50000x128 .f32) (a1 : IVec S2x500000 32) (a2 : FVec Ideal S128x128 .f32)
    (a3 : FVec Ideal S128 .f32) (a4 : FVec Ideal S128x64 .f32) (a5 : FVec Ideal S64 .f32) (n : Fin 50000) (q : Fin 64) :
    val_main_v92 (F := Ideal) a0 a1 a2 a3 a4 a5 (ix2 n q)
      = layerR (srcRow (EI2 a1)) (dstRow (EI2 a1)) (del (EI2 a1)) (dnode (EI2 a1))
          (mm (fun n k => val_main_v48 (F := Ideal) a0 a1 a2 a3 (ix2 n k)) (fun k q => a4 (ix2 k q)))
          (fun q => a5 (ix1 q)) n q := by
  rw [val_main_v92_apply, val_main_v89_apply, val_main_v88_apply, v84_at, v87_at, v91_at]
  unfold layerR
  simp only [← v49_at]
  generalize (∑ e : Fin 500000, if del (EI2 a1) e n then
          (dnode (EI2 a1) (srcRow (EI2 a1) e) * dnode (EI2 a1) (dstRow (EI2 a1) e))
            * val_main_v49 (F := Ideal) a0 a1 a2 a3 a4 (ix2 (srcRow (EI2 a1) e) q) else 0) = s
  rfl

end Cert.RefRead2

end
-- ==== Proof.RefValue.lean ====
/-
  The reference program's result, entry by entry, is the second arrangement of Spec.lean: its second layer
  (RefLayer2.lean) applied to its hidden layer (RefLayer1.lean).
-/
import proofs.«104957_j37477884625100_2_alg».proof.Proof.RefLayer1
import proofs.«104957_j37477884625100_2_alg».proof.Proof.RefLayer2

noncomputable section

namespace Cert.RefValue

open Idealize.ShloMosaic Idealize.ShloMosaic.ValueIdx Cert.ReferenceIdeal Cert.ReferenceIdeal.Read Cert.Gcn

/-- Entry (n, q) of the reference's result as a function of the six argument arrays. -/
theorem v92_out (a0 : FVec Ideal S50000x128 .f32) (a1 : IVec S2x500000 32) (a2 : FVec Ideal S128x128 .f32)
    (a3 : FVec Ideal S128 .f32) (a4 : FVec Ideal S128x64 .f32) (a5 : FVec Ideal S64 .f32) (n : Fin 50000) (q : Fin 64) :
    val_main_v92 (F := Ideal) a0 a1 a2 a3 a4 a5 (ix2 n q)
      = outR (fun n k => a0 (ix2 n k)) (fun r e => a1 (ix2 r e)) (fun k q => a2 (ix2 k q)) (fun q => a3 (ix1 q))
          (fun k q => a4 (ix2 k q)) (fun q => a5 (ix1 q)) n q := by
  have hH : (fun (n : Fin 50000) (k : Fin 128) => val_main_v48 (F := Ideal) a0 a1 a2 a3 (ix2 n k))
      = hiddenR (fun n k => a0 (ix2 n k)) (fun r e => a1 (ix2 r e)) (fun k q => a2 (ix2 k q)) (fun q => a3 (ix1 q)) :=
    funext fun n => funext fun k => Cert.RefRead.v48_eq a0 a1 a2 a3 n k
  refine (Cert.RefRead2.v92_eq a0 a1 a2 a3 a4 a5 n q).trans ?_
  rw [hH]
  rfl

end Cert.RefValue

end
-- ==== Proof.Algebra.lean ====
/-
  The real-number algebra that joins the two arrangements of a graph-convolution layer.

  On the extended reals multiplication does not distribute over addition at the infinities, so every
  quantity is first shown to be a real number; the two arrangements are then compared in the reals, where
  the comparison is distributivity and commutativity, together with the one fact about positions: an edge
  that lands on row n is looked up, through its destination word, at row n.
-/
import proofs.«104957_j37477884625100_2_alg».proof.Proof.Spec
import Mathlib.Tactic

noncomputable section

namespace Cert.Gcn

open Idealize.ShloMosaic
open scoped BigOperators

/-! ## Positions -/

/-- A word that lands on row n is non-negative, so it is not wrapped, and n is already within the rows. -/
theorem pick_of_lands {w : BitVec 32} {n : Fin 50000} (h : lands w n) : pick w = n := by
  unfold lands at h
  have hn := n.isLt
  have hs : w.slt 0#32 = false := by
    simp [BitVec.slt, h]
  have hw : wrap w = w := by
    unfold wrap IntOp.cmpi Scalar.select
    simp [hs]
  apply Fin.ext
  simp only [pick, hw, h]
  omega

/-! ## Real numbers inside the extended reals -/

/-- A finite sum of real numbers, taken in the extended reals, is the real sum. -/
theorem coe_sum {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem isReal_coe (r : ℝ) : IsReal (r : EReal) := ⟨r, rfl⟩

theorem isReal_zero : IsReal (0 : EReal) := ⟨0, rfl⟩

theorem isReal_one : IsReal (1 : EReal) := ⟨1, rfl⟩

theorem isReal_add {a b : EReal} (ha : IsReal a) (hb : IsReal b) : IsReal (a + b) := by
  obtain ⟨x, rfl⟩ := ha; obtain ⟨y, rfl⟩ := hb; exact ⟨x + y, (EReal.coe_add x y).symm⟩

theorem isReal_mul {a b : EReal} (ha : IsReal a) (hb : IsReal b) : IsReal (a * b) := by
  obtain ⟨x, rfl⟩ := ha; obtain ⟨y, rfl⟩ := hb; exact ⟨x * y, (EReal.coe_mul x y).symm⟩

theorem isReal_sum {ι : Type} (s : Finset ι) {f : ι → EReal} (hf : ∀ i, IsReal (f i)) :
    IsReal (∑ i ∈ s, f i) := by
  choose g hg using hf
  exact ⟨∑ i ∈ s, g i, by rw [← coe_sum]; exact Finset.sum_congr rfl fun i _ => hg i⟩

theorem isReal_ite {p : Prop} [Decidable p] {a b : EReal} (ha : IsReal a) (hb : IsReal b) :
    IsReal (if p then a else b) := by
  split_ifs <;> assumption

/-- The degree is one more than a count, so it is a real number that is at least one; its inverse square
    root is therefore the real number 1/sqrt(deg). -/
theorem isReal_dinv {N M : Nat} (del : Fin M → Fin N → Prop) [∀ e n, Decidable (del e n)] (n : Fin N) :
    IsReal (dinv del n) := by
  have e1 : ∀ e : Fin M, (if del e n then (1 : EReal) else 0) = (((if del e n then 1 else 0 : ℝ)) : EReal) := by
    intro e; split_ifs <;> simp
  have hnn : 0 ≤ ∑ e : Fin M, (if del e n then 1 else 0 : ℝ) :=
    Finset.sum_nonneg fun e _ => by split_ifs <;> norm_num
  have hdeg : deg del n = ((0 + (∑ e : Fin M, (if del e n then 1 else 0 : ℝ)) + 1 : ℝ) : EReal) := by
    unfold deg
    simp only [e1, coe_sum]
    rw [EReal.coe_add, EReal.coe_add, EReal.coe_zero, EReal.coe_one]
  unfold dinv
  rw [hdeg, Ideal.rsqrt_coe]
  have hpos : (0 : ℝ) < 0 + (∑ e : Fin M, (if del e n then 1 else 0 : ℝ)) + 1 := by linarith
  rw [if_neg (not_lt.mpr hpos.le), if_neg hpos.ne']
  exact isReal_coe _

theorem isReal_mm {N K D : Nat} {x : Fin N → Fin K → EReal} {w : Fin K → Fin D → EReal}
    (hx : ∀ n k, IsReal (x n k)) (hw : ∀ k q, IsReal (w k q)) (n : Fin N) (q : Fin D) : IsReal (mm x w n q) := by
  unfold mm
  exact isReal_sum _ fun k => isReal_mul (hx n k) (hw k q)

theorem isReal_relu {v : EReal} (h : IsReal v) : IsReal (relu v) := by
  obtain ⟨r, rfl⟩ := h
  unfold relu
  rcases le_total (r : EReal) 0 with h0 | h0
  · rw [max_eq_right h0]; exact isReal_zero
  · rw [max_eq_left h0]; exact isReal_coe r

theorem isReal_layerK {N M D : Nat} (S : Fin M → Fin N) (del : Fin M → Fin N → Prop) [∀ e n, Decidable (del e n)]
    (d : Fin N → EReal) (h : Fin N → Fin D → EReal) (b : Fin D → EReal)
    (hd : ∀ n, IsReal (d n)) (hh : ∀ n q, IsReal (h n q)) (hb : ∀ q, IsReal (b q)) (n : Fin N) (q : Fin D) :
    IsReal (layerK S del d h b n q) := by
  unfold layerK
  refine isReal_add (isReal_mul (hd n) (isReal_add (isReal_add isReal_zero (isReal_sum _ fun e => ?_)) ?_)) (hb q)
  · exact isReal_ite (isReal_mul (hh _ _) (hd _)) isReal_zero
  · exact isReal_mul (hh _ _) (hd _)

/-! ## The two arrangements of one layer agree -/

/-- With d and h real, scaling the accumulated sum by d n is scaling each landing edge's term by d n, and
    for a landing edge d n is d (Dn e). -/
theorem layer_eq {N M D : Nat} (S Dn : Fin M → Fin N) (del : Fin M → Fin N → Prop) [∀ e n, Decidable (del e n)]
    (d : Fin N → EReal) (h : Fin N → Fin D → EReal) (b : Fin D → EReal)
    (hdel : ∀ e n, del e n → Dn e = n) (hd : ∀ n, IsReal (d n)) (hh : ∀ n q, IsReal (h n q)) (n : Fin N) (q : Fin D) :
    layerK S del d h b n q = layerR S Dn del d h b n q := by
  choose dr hdr using hd
  choose hr hhr using hh
  have hd' : d = fun n => ((dr n : ℝ) : EReal) := funext hdr
  have hh' : h = fun n q => ((hr n q : ℝ) : EReal) := funext fun n => funext fun q => hhr n q
  subst hd' hh'
  unfold layerK layerR
  congr 1
  have e1 : ∀ e : Fin M, (if del e n then ((hr (S e) q : ℝ) : EReal) * ((dr (S e) : ℝ) : EReal) else 0)
      = (((if del e n then hr (S e) q * dr (S e) else 0 : ℝ)) : EReal) := by
    intro e; split_ifs <;> simp
  have e2 : ∀ e : Fin M, (if del e n then (((dr (S e) : ℝ) : EReal) * ((dr (Dn e) : ℝ) : EReal)) * ((hr (S e) q : ℝ) : EReal) else 0)
      = (((if del e n then (dr (S e) * dr (Dn e)) * hr (S e) q else 0 : ℝ)) : EReal) := by
    intro e; split_ifs <;> simp
  simp only [e1, e2, coe_sum]
  simp only [← EReal.coe_mul, ← EReal.coe_zero, ← EReal.coe_add]
  congr 1
  rw [zero_add, zero_add, mul_add, Finset.mul_sum]
  congr 1
  · apply Finset.sum_congr rfl
    intro e _
    split_ifs with he
    · rw [hdel e n he]; ring
    · ring
  · ring

/-! ## The two arrangements of the network agree -/

theorem out_eq (x : Fin 50000 → Fin 128 → EReal) (ei : Fin 2 → Fin 500000 → BitVec 32)
    (w1 : Fin 128 → Fin 128 → EReal) (b1 : Fin 128 → EReal) (w2 : Fin 128 → Fin 64 → EReal) (b2 : Fin 64 → EReal)
    (hx : ∀ n k, IsReal (x n k)) (hw1 : ∀ k q, IsReal (w1 k q)) (hb1 : ∀ q, IsReal (b1 q))
    (hw2 : ∀ k q, IsReal (w2 k q)) :
    outK x ei w1 b1 w2 b2 = outR x ei w1 b1 w2 b2 := by
  have hdel : ∀ e n, del ei e n → dstRow ei e = n := fun e n he => pick_of_lands he
  have hd : ∀ n, IsReal (dnode ei n) := fun n => isReal_dinv (del ei) n
  have hh1 : ∀ n q, IsReal (mm x w1 n q) := isReal_mm hx hw1
  have hhid : hiddenR x ei w1 b1 = hiddenK x ei w1 b1 := by
    funext n k
    unfold hiddenR hiddenK
    rw [layer_eq (srcRow ei) (dstRow ei) (del ei) (dnode ei) (mm x w1) b1 hdel hd hh1 n k]
  funext n q
  unfold outK outR
  rw [hhid]
  refine layer_eq (srcRow ei) (dstRow ei) (del ei) (dnode ei) _ b2 hdel hd (isReal_mm (fun n k => ?_) hw2) n q
  unfold hiddenK
  exact isReal_relu (isReal_layerK _ _ _ _ _ hd hh1 hb1 n k)

end Cert.Gcn

end
-- ==== Proof.LibRealEntry.lean ====
/-
  The entry fact behind a "every input is finite" precondition, at the ideal values: the precondition compares each
  entry's absolute value with the float word of +infinity by "less than"; an extended real that passes is a real
  number. Independent of any program: use it on each entry after the precondition's conjunction and its
  all-reductions have been opened.
-/
import Idealize.ShloMosaic.PureOps.Ideal

noncomputable section

namespace Cert.LibRealEntry

open Idealize.ShloMosaic

/-- The f32 word 0x7F800000 denotes +infinity. -/
theorem inf_word : Ideal.ofBits .f32 0x7F800000#32 = (⊤ : EReal) := by
  simp [Ideal.ofBits, Ideal.ieee]

/-- An extended real whose absolute value `max x (-x)` compares below the word of +infinity is a real number:
    the absolute value of either infinity is +infinity. -/
theorem real_of_abs_lt_inf (x : EReal)
    (h : Ideal.cmp .olt (max x (-x)) (Ideal.ofBits .f32 0x7F800000#32) = 1#1) : ∃ r : ℝ, x = r := by
  rw [inf_word] at h
  have h' : max x (-x) < ⊤ := by
    by_contra hn
    simp [Ideal.cmp, hn] at h
  induction x using EReal.rec with
  | bot => simp at h'
  | coe r => exact ⟨r, rfl⟩
  | top => simp at h'

end Cert.LibRealEntry
-- ==== Proof.Finite.lean ====
/-
  From the precondition "every float input is finite" to "every entry of the five float argument arrays is a real
  number", at the ideal values. The precondition is a conjunction of five all-reductions; each reduces, by "and",
  the entrywise comparison |x| < +infinity of one array. An all-reduction that is 1 had a 1 at every entry, and an
  extended real whose absolute value compares below +infinity is a real number.
-/
import proofs.«104957_j37477884625100_2_alg».proof.Pre_finite_inputs
import proofs.«104957_j37477884625100_2_alg».proof.Proof.Gen.Pre_finite_inputs
import proofs.«104957_j37477884625100_2_alg».proof.Proof.LibRealEntry
import Idealize.ShloMosaic.Lib.ReduceAll
import Idealize.ShloMosaic.Lib.ValueIdx

noncomputable section

namespace Cert.Finite

open Idealize.ShloMosaic Cert.Pre_finite_inputs

/-- The rank-0 shape has exactly one index. -/
instance subsingleton_S_ : Subsingleton S_.Idx := ⟨fun _ _ => funext fun d => d.elim0⟩

/-- One factor of the precondition: if the all-reduction by "and" of the entrywise test |a i| < +infinity is 1, then
    every entry of `a` is a real number. The broadcast of the rank-0 constant reads the constant at every index. -/
theorem real_of_all {s : Shape} {axes : List (Fin s.rank)} (a : FVec Ideal s .f32)
    (hb : S_.BroadcastsInDim s (![] : Fin 0 → Fin s.rank)) (hr : s.ReducesTo axes S_) (hu : 0 < S_.numel) (j : S_.Idx)
    (e : Host.reduce IntOp.andi
        (cmpf .olt (Host.absf a) (broadcastInDim s ![] hb (constant (F := Ideal) S_ .f32 0x7F800000#32)))
        (constantI S_ 1 1#1) hr hu j = 1#1) :
    ∀ i, ∃ r : ℝ, a i = (r : EReal) := by
  intro i
  have hi := Host.reduce_andi_all _ _ hr hu j e i
  exact Cert.LibRealEntry.real_of_abs_lt_inf (a i) hi

theorem real_entries (a0 : FVec Ideal Cert.Pre_finite_inputs.S50000x128 .f32) (a1 : IVec Cert.Pre_finite_inputs.S2x500000 32) (a2 : FVec Ideal Cert.Pre_finite_inputs.S128x128 .f32) (a3 : FVec Ideal Cert.Pre_finite_inputs.S128 .f32) (a4 : FVec Ideal Cert.Pre_finite_inputs.S128x64 .f32) (a5 : FVec Ideal Cert.Pre_finite_inputs.S64 .f32)
    (h : Cert.Pre_finite_inputs.fn (F := Ideal) a0 a1 a2 a3 a4 a5 = (fun _ => 1#1)) :
    (∀ i, ∃ r : ℝ, a0 i = (r : EReal)) ∧ (∀ i, ∃ r : ℝ, a2 i = (r : EReal)) ∧ (∀ i, ∃ r : ℝ, a3 i = (r : EReal)) ∧ (∀ i, ∃ r : ℝ, a4 i = (r : EReal)) ∧ (∀ i, ∃ r : ℝ, a5 i = (r : EReal)) := by
  have h0 := congrFun h ValueIdx.ix0
  dsimp only [Cert.Pre_finite_inputs.fn, Cert.Pre_finite_inputs.fn_part1, andi] at h0
  obtain ⟨h1234, h5⟩ := IntOp.andi_eq_one.1 h0
  obtain ⟨h123, h4⟩ := IntOp.andi_eq_one.1 h1234
  obtain ⟨h12, h3⟩ := IntOp.andi_eq_one.1 h123
  obtain ⟨h1, h2⟩ := IntOp.andi_eq_one.1 h12
  exact ⟨real_of_all a0 _ _ _ _ h1, real_of_all a2 _ _ _ _ h2, real_of_all a3 _ _ _ _ h3,
    real_of_all a4 _ _ _ _ h4, real_of_all a5 _ _ _ _ h5⟩

end Cert.Finite

end
-- ==== Proof.lean ====
/-
  The certificate of a two-layer graph convolution: the tiled kernel program against its plain reference.

  Both programs compute, for a graph given as a list of edges (source, destination) over 50000 nodes, the degree
  deg n = (number of edges whose destination is n) + 1, d = 1/sqrt(deg), and twice a layer
  "multiply by the weights, combine every node with the nodes that send it an edge, add the bias", with a rectifier
  in between. The reference weighs each edge by d(source) * d(destination) and the node itself by d n * d n; the
  kernel program scales the product by d once before the edges are followed and once after (the matrix products and the
  first scaling are its two kernel regions; following the edges stays on the host). An edge counts for node n only
  when its destination word is n itself, and then looking d up through that word reads d n: so the two arrangements
  differ by distributing d n over a finite sum, which holds because every quantity is a real number — the inputs by the
  precondition, d because a degree is at least one.

  The three frames: the two kernel programs by their generated frame certificates, the reference by its generated run.
  The idealization rewrote nothing. For the comparison, the kernel program's run is KernelRun.lean with its result read
  entry by entry in KernelValue.lean; the reference's is its generated run read in RefValue.lean; Algebra.lean joins them.
-/
import proofs.«104957_j37477884625100_2_alg».proof.Defs
import proofs.«104957_j37477884625100_2_alg».proof.Proof.Gen.Kernel
import proofs.«104957_j37477884625100_2_alg».proof.Proof.Gen.Kernel.Frame
import proofs.«104957_j37477884625100_2_alg».proof.Proof.Gen.KernelIdeal
import proofs.«104957_j37477884625100_2_alg».proof.Proof.Gen.KernelIdeal.Frame
import proofs.«104957_j37477884625100_2_alg».proof.Proof.Gen.ReferenceIdeal
import proofs.«104957_j37477884625100_2_alg».proof.Proof.Gen.Pre_finite_inputs
import proofs.«104957_j37477884625100_2_alg».proof.Proof.Gen.ReferenceIdeal.Run
import proofs.«104957_j37477884625100_2_alg».proof.Proof.Gen.ReferenceIdeal.Read
import proofs.«104957_j37477884625100_2_alg».proof.Proof.KernelRun
import proofs.«104957_j37477884625100_2_alg».proof.Proof.KernelValue
import proofs.«104957_j37477884625100_2_alg».proof.Proof.RefValue
import proofs.«104957_j37477884625100_2_alg».proof.Proof.Algebra
import proofs.«104957_j37477884625100_2_alg».proof.Proof.Finite
import Idealize.ShloMosaic.Adequacy
import Idealize.ShloMosaic.Init

noncomputable section

namespace Cert.Proof

open Idealize.ShloMosaic Idealize.ShloMosaic.ValueIdx Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From agreeing argument arrays both programs end with the same result: entry (n, q) of the kernel program's is the
    first arrangement, of the reference's the second, and the two agree on real inputs. -/
theorem algebraic : Cert.algebraic_KernelIdeal_ReferenceIdeal := by
  intro m ρ m' ρ' hpre hagree
  refine ⟨fun c => Cert.KernelIdeal.Gen.W7 m ρ c (Proc.devRef .tc Cert.KernelIdeal.main_v49),
    Cert.KernelIdeal.Run.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  obtain ⟨r0, r2, r3, r4, -⟩ := Cert.Finite.real_entries _ _ _ _ _ _ (hpre c)
  rw [Cert.ReferenceIdeal.Read.val_main_v92_eq, h0, h1, h2, h3, h4, h5]
  funext i
  obtain ⟨n, q, rfl⟩ : ∃ (n : Fin 50000) (q : Fin 64), i = ix2 n q := ⟨i 0, i 1, eq_ix2 i⟩
  refine (Cert.RefValue.v92_out _ _ _ _ _ _ n q).trans ?_
  refine Eq.trans ?_ (Cert.KernelIdeal.Result.result_apply m ρ c n q).symm
  exact (congrFun (congrFun (Cert.Gcn.out_eq (Cert.KernelIdeal.Result.X m c) (Cert.KernelIdeal.Result.E m c)
    (Cert.KernelIdeal.Result.Wa m c) (Cert.KernelIdeal.Result.Ba m c) (Cert.KernelIdeal.Result.Wb m c)
    (Cert.KernelIdeal.Result.Bb m c) (fun n k => r0 (ix2 n k)) (fun k q => r2 (ix2 k q)) (fun q => r3 (ix1 q))
    (fun k q => r4 (ix2 k q))) n) q).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
